-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S64x2 .f32) (main_arg9 : FVec F S2 .f32) (main_v33 : IVec S_ 1) : IVec S_ 1 :=
  let main_v34 : FVec F S64x2 .f32 := Host.absf main_arg8
  let main_cst_12 : FVec F S_ .f32 := constant S_ .f32 0x7F800000#32
  let main_v35 : FVec F S64x2 .f32 := broadcastInDim S64x2 ![] bcast_S_S64x2 main_cst_12
  let main_v36 : IVec S64x2 1 := cmpf .olt main_v34 main_v35
  let main_c_13 : IVec S_ 1 := constantI S_ 1 1#1
  let main_v37 : IVec S_ 1 := (fun x v => Host.reduce IntOp.andi x v reducesTo_S64x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg5 : FVec F S64 .f32) (main_arg6 : FVec F S64x64 .f32) (main_arg7 : FVec F S64 .f32) (main_arg8 : FVec F S64x2 .f32) (main_arg9 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x32 .f32) (main_arg1 : IVec S2x1600000 32) (main_arg2 : FVec F S32x64 .f32) (main_arg3 : FVec F S64 .f32) (main_arg4 : FVec F S64x64 .f32) (main_arg5 : FVec F S64 .f32) (main_arg6 : FVec F S64x64 .f32) (main_arg7 : FVec F S64 .f32) (main_arg8 : FVec F S64x2 .f32) (main_arg9 : FVec F S2 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x64 .f32 := Host.absf main_arg2
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x64 : Shape := ⟨2, ![1, 64]⟩
abbrev S100000x64 : Shape := ⟨2, ![100000, 64]⟩
abbrev S10000x32 : Shape := ⟨2, ![10000, 32]⟩
abbrev S10000x64 : Shape := ⟨2, ![10000, 64]⟩
abbrev S1700000x64 : Shape := ⟨2, ![1700000, 64]⟩
abbrev S1x2 : Shape := ⟨2, ![1, 2]⟩
abbrev S100000x2 : Shape := ⟨2, ![100000, 2]⟩
abbrev S10000x2 : Shape := ⟨2, ![10000, 2]⟩

abbrev nBuf : Space → Nat
  | .hbm => 115
  | .vmem => 39
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x2, .f32⟩
  | .hbm, ⟨9, _⟩ => ⟨S2, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S_, .f32⟩
  | .hbm, ⟨51, _⟩ => ⟨S1x64, .f32⟩
  | .hbm, ⟨52, _⟩ => ⟨S100000x64, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x64, .f32⟩
  | .hbm, ⟨62, _⟩ => ⟨S1700000x1, .f32⟩
  | .hbm, ⟨63, _⟩ => ⟨S1700000x64, .f32⟩
  | .hbm, ⟨64, _⟩ => ⟨S1700000x64, .f32⟩
  | .hbm, ⟨65, _⟩ => ⟨S_, .f32⟩
  | .hbm, ⟨66, _⟩ => ⟨S100000x64, .f32⟩
  | .hbm, ⟨67, _⟩ => ⟨S1700000x1, .i32⟩
  | .hbm, ⟨68, _⟩ => ⟨S100000x64, .f32⟩
  | .hbm, ⟨69, _⟩ => ⟨S1x64, .f32⟩
  | .hbm, ⟨70, _⟩ => ⟨S100000x64, .f32⟩
  | .hbm, ⟨71, _⟩ => ⟨S_, .f32⟩
  | .hbm, ⟨72, _⟩ => ⟨S1x64, .f32⟩
  | .hbm, ⟨73, _⟩ => ⟨S100000x64, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x64, .f32⟩
  | .hbm, ⟨83, _⟩ => ⟨S1700000x1, .f32⟩
  | .hbm, ⟨84, _⟩ => ⟨S1700000x64, .f32⟩
  | .hbm, ⟨85, _⟩ => ⟨S1700000x64, .f32⟩
  | .hbm, ⟨86, _⟩ => ⟨S_, .f32⟩
  | .hbm, ⟨87, _⟩ => ⟨S100000x64, .f32⟩
  | .hbm, ⟨88, _⟩ => ⟨S1700000x1, .i32⟩
  | .hbm, ⟨89, _⟩ => ⟨S100000x64, .f32⟩
  | .hbm, ⟨90, _⟩ => ⟨S1x64, .f32⟩
  | .hbm, ⟨91, _⟩ => ⟨S100000x64, .f32⟩
  | .hbm, ⟨92, _⟩ => ⟨S_, .f32⟩
  | .hbm, ⟨93, _⟩ => ⟨S1x64, .f32⟩
  | .hbm, ⟨94, _⟩ => ⟨S100000x64, .f32⟩
  | .hbm, ⟨95, _⟩ => ⟨S_, .i32⟩
  | .hbm, ⟨96, _⟩ => ⟨S1700000, .i32⟩
  | .hbm, ⟨97, _⟩ => ⟨S1700000, .i1⟩
  | .hbm, ⟨98, _⟩ => ⟨S_, .i32⟩
  | .hbm, ⟨99, _⟩ => ⟨S1700000, .i32⟩
  | .hbm, ⟨100, _⟩ => ⟨S1700000, .i32⟩
  | .hbm, ⟨101, _⟩ => ⟨S1700000, .i32⟩
  | .hbm, ⟨102, _⟩ => ⟨S1700000x1, .i32⟩
  | .hbm, ⟨103, _⟩ => ⟨S1700000x64, .f32⟩
  | .hbm, ⟨104, _⟩ => ⟨S1700000x1, .f32⟩
  | .hbm, ⟨105, _⟩ => ⟨S1700000x64, .f32⟩
  | .hbm, ⟨106, _⟩ => ⟨S1700000x64, .f32⟩
  | .hbm, ⟨107, _⟩ => ⟨S_, .f32⟩
  | .hbm, ⟨108, _⟩ => ⟨S100000x64, .f32⟩
  | .hbm, ⟨109, _⟩ => ⟨S1700000x1, .i32⟩
  | .hbm, ⟨110, _⟩ => ⟨S100000x64, .f32⟩
  | .hbm, ⟨111, _⟩ => ⟨S1x64, .f32⟩
  | .hbm, ⟨112, _⟩ => ⟨S100000x64, .f32⟩
  | .hbm, ⟨113, _⟩ => ⟨S1x2, .f32⟩
  | .hbm, ⟨114, _⟩ => ⟨S100000x2, .f32⟩
  | .local _ .vmem, ⟨0, _⟩ => ⟨S10000x32, .f32⟩
  | .local _ .vmem, ⟨1, _⟩ => ⟨S10000x32, .f32⟩
  | .local _ .vmem, ⟨2, _⟩ => ⟨S32x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S1x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S1x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S64x64, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S1x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S64x2, .f32⟩
  | .local _ .vmem, ⟨36, _⟩ => ⟨S1x2, .f32⟩
  | .local _ .vmem, ⟨37, _⟩ => ⟨S10000x2, .f32⟩
  | .local _ .vmem, ⟨38, _⟩ => ⟨S10000x2, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_6 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_c_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_10 : Ref sig .tc := ⟨.hbm, 71, rfl⟩
abbrev main_v47 : Ref sig .tc := ⟨.hbm, 72, rfl⟩
abbrev main_v48 : Ref sig .tc := ⟨.hbm, 73, rfl⟩
abbrev main_c_11 : Ref sig .tc := ⟨.hbm, 74, rfl⟩
abbrev main_v49 : Ref sig .tc := ⟨.hbm, 75, rfl⟩
abbrev main_v50 : Ref sig .tc := ⟨.hbm, 76, rfl⟩
abbrev main_c_12 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_13 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_14 : Ref sig .tc := ⟨.hbm, 92, rfl⟩
abbrev main_v64 : Ref sig .tc := ⟨.hbm, 93, rfl⟩
abbrev main_v65 : Ref sig .tc := ⟨.hbm, 94, rfl⟩
abbrev main_c_15 : Ref sig .tc := ⟨.hbm, 95, rfl⟩
abbrev main_v66 : Ref sig .tc := ⟨.hbm, 96, rfl⟩
abbrev main_v67 : Ref sig .tc := ⟨.hbm, 97, rfl⟩
abbrev main_c_16 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_17 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc4_stg3_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg2_1 : Ref sig .tc := ⟨.vmem, 32, rfl⟩
abbrev cc6_stg0_0 : Ref sig .tc := ⟨.vmem, 33, rfl⟩
abbrev cc6_stg0_1 : Ref sig .tc := ⟨.vmem, 34, rfl⟩
abbrev cc6_stg1_0 : Ref sig .tc := ⟨.vmem, 35, rfl⟩
abbrev cc6_stg2_0 : Ref sig .tc := ⟨.vmem, 36, rfl⟩
abbrev cc6_stg3_0 : Ref sig .tc := ⟨.vmem, 37, rfl⟩
abbrev cc6_stg3_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem3_0 : DmaSem sig := 26
abbrev cc4_sem3_1 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem2_1 : DmaSem sig := 32
abbrev cc6_sem0_0 : DmaSem sig := 33
abbrev cc6_sem0_1 : DmaSem sig := 34
abbrev cc6_sem1_0 : DmaSem sig := 35
abbrev cc6_sem2_0 : DmaSem sig := 36
abbrev cc6_sem3_0 : DmaSem sig := 37
abbrev cc6_sem3_1 : DmaSem sig := 38

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x2 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x2 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S10000x2 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1x64 : S_.BroadcastsInDim S1x64 (![] : Fin 0 → Fin S1x64.rank)
  inb_S10000x32_S10000x32_0_0 : ∀ a, (![0, 0] : Fin 2 → Nat) a + S10000x32.size a ≤ S10000x32.size a
  h_S10000x32 : 0 < S10000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S2_S1x2 : S2.ShapeCasts S1x2
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  inb_S10000x2_S10000x2_0_0 : ∀ a, (![0, 0] : Fin 2 → Nat) a + S10000x2.size a ≤ S10000x2.size a
  h_S10000x2 : 0 < S10000x2.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x32_S32x64_S10000x64_1_0_0_1_n_n_wf : DotDims.WF S10000x32 S32x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  dot_S10000x64_S64x2_S10000x2_1_0_0_1_n_n_wf : DotDims.WF S10000x64 S64x2 S10000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x64.size a ≤ S100000x64.size a
  hwx4_3 : ∀ i : grid4.Coords, EltTy.bits .f32 = 32 ∨ (Rect.block (s := S100000x64) S10000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x2.size a ≤ S64x2.size a
  hwx6_1 : ∀ i : grid6.Coords, EltTy.bits .f32 = 32 ∨ (Rect.block (s := S64x2) S64x2.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x2.size a ≤ S1x2.size a
  hwx6_2 : ∀ i : grid6.Coords, EltTy.bits .f32 = 32 ∨ (Rect.block (s := S1x2) S1x2.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S10000x2.size a ≤ S100000x2.size a
  hwx6_3 : ∀ i : grid6.Coords, EltTy.bits .f32 = 32 ∨ (Rect.block (s := S100000x2) S10000x2.size (cc6_transform_3 i) (hinb6_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x2_S10000x2_1_0_0_1_n_n : DotDims S10000x64 S64x2 S10000x2 where
  lhsContracting := [1]
  rhsContracting := [0]
  lhsNonContracting := [0]
  rhsNonContracting := [1]
  lhsBatch := []
  rhsBatch := []
  wf := dot_S10000x64_S64x2_S10000x2_1_0_0_1_n_n_wf

abbrev win0_0 : Pipeline.Window sig grid0 :=
  Pipeline.Window.ofSpec (Memref.whole main_arg0) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v44) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v61) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v65) S10000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v78) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v79) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v80) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v80) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S64x2.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v81) S1x2.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v82) S10000x2.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x2 : Shape := ⟨2, ![100000, 2]⟩
abbrev S1x2 : Shape := ⟨2, ![1, 2]⟩

abbrev nBuf : Space → Nat
  | .hbm => 123
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x2, .f32⟩
  | .hbm, ⟨9, _⟩ => ⟨S2, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x64, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x64, .f32⟩
  | .hbm, ⟨60, _⟩ => ⟨S1700000x1, .f32⟩
  | .hbm, ⟨61, _⟩ => ⟨S1700000x64, .f32⟩
  | .hbm, ⟨62, _⟩ => ⟨S1700000x64, .f32⟩
  | .hbm, ⟨63, _⟩ => ⟨S_, .f32⟩
  | .hbm, ⟨64, _⟩ => ⟨S100000x64, .f32⟩
  | .hbm, ⟨65, _⟩ => ⟨S1700000x1, .i32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S100000x64, .f32⟩
  | .hbm, ⟨70, _⟩ => ⟨S_, .f32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x64, .f32⟩
  | .hbm, ⟨83, _⟩ => ⟨S1700000x1, .f32⟩
  | .hbm, ⟨84, _⟩ => ⟨S1700000x64, .f32⟩
  | .hbm, ⟨85, _⟩ => ⟨S1700000x64, .f32⟩
  | .hbm, ⟨86, _⟩ => ⟨S_, .f32⟩
  | .hbm, ⟨87, _⟩ => ⟨S100000x64, .f32⟩
  | .hbm, ⟨88, _⟩ => ⟨S1700000x1, .i32⟩
  | .hbm, ⟨89, _⟩ => ⟨S100000x64, .f32⟩
  | .hbm, ⟨90, _⟩ => ⟨S1x64, .f32⟩
  | .hbm, ⟨91, _⟩ => ⟨S100000x64, .f32⟩
  | .hbm, ⟨92, _⟩ => ⟨S100000x64, .f32⟩
  | .hbm, ⟨93, _⟩ => ⟨S_, .f32⟩
  | .hbm, ⟨94, _⟩ => ⟨S100000x64, .f32⟩
  | .hbm, ⟨95, _⟩ => ⟨S100000x64, .f32⟩
  | .hbm, ⟨96, _⟩ => ⟨S100000x64, .f32⟩
  | .hbm, ⟨97, _⟩ => ⟨S_, .i32⟩
  | .hbm, ⟨98, _⟩ => ⟨S1700000, .i32⟩
  | .hbm, ⟨99, _⟩ => ⟨S1700000, .i1⟩
  | .hbm, ⟨100, _⟩ => ⟨S_, .i32⟩
  | .hbm, ⟨101, _⟩ => ⟨S1700000, .i32⟩
  | .hbm, ⟨102, _⟩ => ⟨S1700000, .i32⟩
  | .hbm, ⟨103, _⟩ => ⟨S1700000, .i32⟩
  | .hbm, ⟨104, _⟩ => ⟨S1700000x1, .i32⟩
  | .hbm, ⟨105, _⟩ => ⟨S1700000x64, .f32⟩
  | .hbm, ⟨106, _⟩ => ⟨S1700000x1, .f32⟩
  | .hbm, ⟨107, _⟩ => ⟨S1700000x64, .f32⟩
  | .hbm, ⟨108, _⟩ => ⟨S1700000x64, .f32⟩
  | .hbm, ⟨109, _⟩ => ⟨S_, .f32⟩
  | .hbm, ⟨110, _⟩ => ⟨S100000x64, .f32⟩
  | .hbm, ⟨111, _⟩ => ⟨S1700000x1, .i32⟩
  | .hbm, ⟨112, _⟩ => ⟨S100000x64, .f32⟩
  | .hbm, ⟨113, _⟩ => ⟨S1x64, .f32⟩
  | .hbm, ⟨114, _⟩ => ⟨S100000x64, .f32⟩
  | .hbm, ⟨115, _⟩ => ⟨S100000x64, .f32⟩
  | .hbm, ⟨116, _⟩ => ⟨S_, .f32⟩
  | .hbm, ⟨117, _⟩ => ⟨S100000x64, .f32⟩
  | .hbm, ⟨118, _⟩ => ⟨S100000x64, .f32⟩
  | .hbm, ⟨119, _⟩ => ⟨S100000x2, .f32⟩
  | .hbm, ⟨120, _⟩ => ⟨S1x2, .f32⟩
  | .hbm, ⟨121, _⟩ => ⟨S100000x2, .f32⟩
  | .hbm, ⟨122, _⟩ => ⟨S100000x2, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call2_cst : Ref sig .tc := ⟨.hbm, 93, rfl⟩
abbrev main_call2_v0 : Ref sig .tc := ⟨.hbm, 94, rfl⟩
abbrev main_v65 : Ref sig .tc := ⟨.hbm, 95, rfl⟩
abbrev main_v66 : Ref sig .tc := ⟨.hbm, 96, rfl⟩
abbrev main_c_12 : Ref sig .tc := ⟨.hbm, 97, rfl⟩
abbrev main_v67 : Ref sig .tc := ⟨.hbm, 98, rfl⟩
abbrev main_v68 : Ref sig .tc := ⟨.hbm, 99, rfl⟩
abbrev main_c_13 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_14 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_call3_cst : Ref sig .tc := ⟨.hbm, 116, rfl⟩
abbrev main_call3_v0 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x32_S32x64_S100000x64_1_0_0_1_n_n_wf : DotDims.WF S100000x32 S32x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x2_S100000x2_1_0_0_1_n_n_wf : DotDims.WF S100000x64 S64x2 S100000x2 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf

class Facts : Prop extends Facts₀ where

variable [Facts]
-- ==== Proof.KernelRun.lean ====
/-
  The idealized kernel's run with its result kept.

  The generated frame of this program runs @main as sixteen segments (a host stretch or a kernel region each) and knows,
  at the end, the contents of EVERY buffer of the TensorCore: the last boundary's contents `W16`, a fold through the
  segments from the launch memory. Its post keeps only the ten argument arrays. Here the same run is stated with the
  result array kept as well: it ends at `W16` read at the result's buffer. What that is, as a function of the
  arguments, is read off the fold elsewhere.
-/
import proofs.«131737_j26491358281754_1_alg».proof.Proof.Gen.KernelIdeal.Frame

set_option maxRecDepth 16384

noncomputable section

namespace Cert.KernelIdeal.Valued

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents and the ten argument arrays as launched. -/
theorem run_valued : θ_run defs (onTc (τ := τ) (main (F := F))) ⟨m, fun _ => 0, ρ⟩ (fun r => ∀ c : Dev nD,
      r.2.mem ((c.tc : Thread nD τ).loc main_v82) = W16 m ρ c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v82 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c)⟩)

end Cert.KernelIdeal.Valued

end
-- ==== Proof.Carry.lean ====
/-
  What rides along through the run: the edge lists, the edge weights, and the arguments still to be read.

  Every later host stretch and region needs, beside the array the previous segment produced, the source and destination
  node of every edge, the weight of every edge, and one or two of the weight and bias arguments. None of these buffers is
  written after the first region is entered: a host stretch writes only its own results, a region only its output
  array. So they are carried, unchanged, from boundary to boundary.
-/
import proofs.«131737_j26491358281754_1_alg».proof.Proof.Gen.KernelIdeal.Frame
import proofs.«131737_j26491358281754_1_alg».proof.Proof.RefRead

set_option maxRecDepth 16384

noncomputable section

namespace Cert.KernelIdeal.Fold

open Idealize.ShloMosaic Idealize.ShloMosaic.TcCoe Idealize.SL.Sem Idealize.ShloMosaic.StableHlo
open Idealize.ShloMosaic.Pipeline (Dat)
open Cert.KernelIdeal Cert.KernelIdeal.Gen

theorem congr2 {α β γ : Sort _} (f : α → β → γ) {a a' : α} {b b' : β} (ha : a = a') (hb : b = b') : f a b = f a' b' := by
  subst ha hb; rfl
theorem congr3 {α β γ δ : Sort _} (f : α → β → γ → δ) {a a' : α} {b b' : β} {c c' : γ}
    (ha : a = a') (hb : b = b') (hc : c = c') : f a b c = f a' b' c' := by
  subst ha hb hc; rfl

/-- A buffer that no operation of a host stretch writes holds after the stretch what it held before: the stretch's
    operations are listed, and the buffer is none of their results. -/
macro "not_written" : tactic => `(tactic| (
  refine StableHlo.after_of_forall_not_mem _ _ (List.forall_iff_forall_mem.mp ?_)
  simp only [hostOps0, hostOps0_1, hostOps0_2, hostOps1, hostOps2, hostOps3, hostOps4, hostOps5, hostOps6, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-- At a boundary with contents `W`: the source and destination node of every edge (the self loops appended) and the
    weight of every edge are the reference's stages of the edge-index argument, and the weight and bias arguments not
    yet consumed are as launched. -/
structure Carried (W : Valuation τ sig (Elt Ideal))
    (x1 : (⟨S2x1600000, .i32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x2, .f32⟩ : BufTy).Contents (Elt Ideal)) (x9 : (⟨S2, .f32⟩ : BufTy).Contents (Elt Ideal)) : Prop where
  src : W (Proc.devRef .tc main_v3) = Cert.ReferenceIdeal.ReadP.val_main_v3 (F := Ideal) x1
  dst : W (Proc.devRef .tc main_v6) = Cert.ReferenceIdeal.ReadP.val_main_v6 (F := Ideal) x1
  norm : W (Proc.devRef .tc main_v29) = Cert.ReferenceIdeal.ReadP.val_main_v29 (F := Ideal) x1
  b1 : W (Proc.devRef .tc main_arg3) = x3
  w2 : W (Proc.devRef .tc main_arg4) = x4
  b2 : W (Proc.devRef .tc main_arg5) = x5
  w3 : W (Proc.devRef .tc main_arg6) = x6
  b3 : W (Proc.devRef .tc main_arg7) = x7
  wo : W (Proc.devRef .tc main_arg8) = x8
  bo : W (Proc.devRef .tc main_arg9) = x9

/-- The host stretch before region 1 writes none of the carried buffers. -/
theorem Carried.host1 {W : Valuation τ sig (Elt Ideal)} {x1 x3 x4 x5 x6 x7 x8 x9} (h : Carried W x1 x3 x4 x5 x6 x7 x8 x9) :
    Carried (StableHlo.after hostOps1 W) x1 x3 x4 x5 x6 x7 x8 x9 where
  src := (show StableHlo.after hostOps1 W (Proc.devRef .tc main_v3) = W (Proc.devRef .tc main_v3) by not_written).trans h.src
  dst := (show StableHlo.after hostOps1 W (Proc.devRef .tc main_v6) = W (Proc.devRef .tc main_v6) by not_written).trans h.dst
  norm := (show StableHlo.after hostOps1 W (Proc.devRef .tc main_v29) = W (Proc.devRef .tc main_v29) by not_written).trans h.norm
  b1 := (show StableHlo.after hostOps1 W (Proc.devRef .tc main_arg3) = W (Proc.devRef .tc main_arg3) by not_written).trans h.b1
  w2 := (show StableHlo.after hostOps1 W (Proc.devRef .tc main_arg4) = W (Proc.devRef .tc main_arg4) by not_written).trans h.w2
  b2 := (show StableHlo.after hostOps1 W (Proc.devRef .tc main_arg5) = W (Proc.devRef .tc main_arg5) by not_written).trans h.b2
  w3 := (show StableHlo.after hostOps1 W (Proc.devRef .tc main_arg6) = W (Proc.devRef .tc main_arg6) by not_written).trans h.w3
  b3 := (show StableHlo.after hostOps1 W (Proc.devRef .tc main_arg7) = W (Proc.devRef .tc main_arg7) by not_written).trans h.b3
  wo := (show StableHlo.after hostOps1 W (Proc.devRef .tc main_arg8) = W (Proc.devRef .tc main_arg8) by not_written).trans h.wo
  bo := (show StableHlo.after hostOps1 W (Proc.devRef .tc main_arg9) = W (Proc.devRef .tc main_arg9) by not_written).trans h.bo

/-- The host stretch before region 2 writes none of the carried buffers. -/
theorem Carried.host2 {W : Valuation τ sig (Elt Ideal)} {x1 x3 x4 x5 x6 x7 x8 x9} (h : Carried W x1 x3 x4 x5 x6 x7 x8 x9) :
    Carried (StableHlo.after hostOps2 W) x1 x3 x4 x5 x6 x7 x8 x9 where
  src := (show StableHlo.after hostOps2 W (Proc.devRef .tc main_v3) = W (Proc.devRef .tc main_v3) by not_written).trans h.src
  dst := (show StableHlo.after hostOps2 W (Proc.devRef .tc main_v6) = W (Proc.devRef .tc main_v6) by not_written).trans h.dst
  norm := (show StableHlo.after hostOps2 W (Proc.devRef .tc main_v29) = W (Proc.devRef .tc main_v29) by not_written).trans h.norm
  b1 := (show StableHlo.after hostOps2 W (Proc.devRef .tc main_arg3) = W (Proc.devRef .tc main_arg3) by not_written).trans h.b1
  w2 := (show StableHlo.after hostOps2 W (Proc.devRef .tc main_arg4) = W (Proc.devRef .tc main_arg4) by not_written).trans h.w2
  b2 := (show StableHlo.after hostOps2 W (Proc.devRef .tc main_arg5) = W (Proc.devRef .tc main_arg5) by not_written).trans h.b2
  w3 := (show StableHlo.after hostOps2 W (Proc.devRef .tc main_arg6) = W (Proc.devRef .tc main_arg6) by not_written).trans h.w3
  b3 := (show StableHlo.after hostOps2 W (Proc.devRef .tc main_arg7) = W (Proc.devRef .tc main_arg7) by not_written).trans h.b3
  wo := (show StableHlo.after hostOps2 W (Proc.devRef .tc main_arg8) = W (Proc.devRef .tc main_arg8) by not_written).trans h.wo
  bo := (show StableHlo.after hostOps2 W (Proc.devRef .tc main_arg9) = W (Proc.devRef .tc main_arg9) by not_written).trans h.bo

/-- The host stretch before region 3 writes none of the carried buffers. -/
theorem Carried.host3 {W : Valuation τ sig (Elt Ideal)} {x1 x3 x4 x5 x6 x7 x8 x9} (h : Carried W x1 x3 x4 x5 x6 x7 x8 x9) :
    Carried (StableHlo.after hostOps3 W) x1 x3 x4 x5 x6 x7 x8 x9 where
  src := (show StableHlo.after hostOps3 W (Proc.devRef .tc main_v3) = W (Proc.devRef .tc main_v3) by not_written).trans h.src
  dst := (show StableHlo.after hostOps3 W (Proc.devRef .tc main_v6) = W (Proc.devRef .tc main_v6) by not_written).trans h.dst
  norm := (show StableHlo.after hostOps3 W (Proc.devRef .tc main_v29) = W (Proc.devRef .tc main_v29) by not_written).trans h.norm
  b1 := (show StableHlo.after hostOps3 W (Proc.devRef .tc main_arg3) = W (Proc.devRef .tc main_arg3) by not_written).trans h.b1
  w2 := (show StableHlo.after hostOps3 W (Proc.devRef .tc main_arg4) = W (Proc.devRef .tc main_arg4) by not_written).trans h.w2
  b2 := (show StableHlo.after hostOps3 W (Proc.devRef .tc main_arg5) = W (Proc.devRef .tc main_arg5) by not_written).trans h.b2
  w3 := (show StableHlo.after hostOps3 W (Proc.devRef .tc main_arg6) = W (Proc.devRef .tc main_arg6) by not_written).trans h.w3
  b3 := (show StableHlo.after hostOps3 W (Proc.devRef .tc main_arg7) = W (Proc.devRef .tc main_arg7) by not_written).trans h.b3
  wo := (show StableHlo.after hostOps3 W (Proc.devRef .tc main_arg8) = W (Proc.devRef .tc main_arg8) by not_written).trans h.wo
  bo := (show StableHlo.after hostOps3 W (Proc.devRef .tc main_arg9) = W (Proc.devRef .tc main_arg9) by not_written).trans h.bo

/-- The host stretch before region 4 writes none of the carried buffers. -/
theorem Carried.host4 {W : Valuation τ sig (Elt Ideal)} {x1 x3 x4 x5 x6 x7 x8 x9} (h : Carried W x1 x3 x4 x5 x6 x7 x8 x9) :
    Carried (StableHlo.after hostOps4 W) x1 x3 x4 x5 x6 x7 x8 x9 where
  src := (show StableHlo.after hostOps4 W (Proc.devRef .tc main_v3) = W (Proc.devRef .tc main_v3) by not_written).trans h.src
  dst := (show StableHlo.after hostOps4 W (Proc.devRef .tc main_v6) = W (Proc.devRef .tc main_v6) by not_written).trans h.dst
  norm := (show StableHlo.after hostOps4 W (Proc.devRef .tc main_v29) = W (Proc.devRef .tc main_v29) by not_written).trans h.norm
  b1 := (show StableHlo.after hostOps4 W (Proc.devRef .tc main_arg3) = W (Proc.devRef .tc main_arg3) by not_written).trans h.b1
  w2 := (show StableHlo.after hostOps4 W (Proc.devRef .tc main_arg4) = W (Proc.devRef .tc main_arg4) by not_written).trans h.w2
  b2 := (show StableHlo.after hostOps4 W (Proc.devRef .tc main_arg5) = W (Proc.devRef .tc main_arg5) by not_written).trans h.b2
  w3 := (show StableHlo.after hostOps4 W (Proc.devRef .tc main_arg6) = W (Proc.devRef .tc main_arg6) by not_written).trans h.w3
  b3 := (show StableHlo.after hostOps4 W (Proc.devRef .tc main_arg7) = W (Proc.devRef .tc main_arg7) by not_written).trans h.b3
  wo := (show StableHlo.after hostOps4 W (Proc.devRef .tc main_arg8) = W (Proc.devRef .tc main_arg8) by not_written).trans h.wo
  bo := (show StableHlo.after hostOps4 W (Proc.devRef .tc main_arg9) = W (Proc.devRef .tc main_arg9) by not_written).trans h.bo

/-- The host stretch before region 5 writes none of the carried buffers. -/
theorem Carried.host5 {W : Valuation τ sig (Elt Ideal)} {x1 x3 x4 x5 x6 x7 x8 x9} (h : Carried W x1 x3 x4 x5 x6 x7 x8 x9) :
    Carried (StableHlo.after hostOps5 W) x1 x3 x4 x5 x6 x7 x8 x9 where
  src := (show StableHlo.after hostOps5 W (Proc.devRef .tc main_v3) = W (Proc.devRef .tc main_v3) by not_written).trans h.src
  dst := (show StableHlo.after hostOps5 W (Proc.devRef .tc main_v6) = W (Proc.devRef .tc main_v6) by not_written).trans h.dst
  norm := (show StableHlo.after hostOps5 W (Proc.devRef .tc main_v29) = W (Proc.devRef .tc main_v29) by not_written).trans h.norm
  b1 := (show StableHlo.after hostOps5 W (Proc.devRef .tc main_arg3) = W (Proc.devRef .tc main_arg3) by not_written).trans h.b1
  w2 := (show StableHlo.after hostOps5 W (Proc.devRef .tc main_arg4) = W (Proc.devRef .tc main_arg4) by not_written).trans h.w2
  b2 := (show StableHlo.after hostOps5 W (Proc.devRef .tc main_arg5) = W (Proc.devRef .tc main_arg5) by not_written).trans h.b2
  w3 := (show StableHlo.after hostOps5 W (Proc.devRef .tc main_arg6) = W (Proc.devRef .tc main_arg6) by not_written).trans h.w3
  b3 := (show StableHlo.after hostOps5 W (Proc.devRef .tc main_arg7) = W (Proc.devRef .tc main_arg7) by not_written).trans h.b3
  wo := (show StableHlo.after hostOps5 W (Proc.devRef .tc main_arg8) = W (Proc.devRef .tc main_arg8) by not_written).trans h.wo
  bo := (show StableHlo.after hostOps5 W (Proc.devRef .tc main_arg9) = W (Proc.devRef .tc main_arg9) by not_written).trans h.bo

/-- The host stretch before region 6 writes none of the carried buffers. -/
theorem Carried.host6 {W : Valuation τ sig (Elt Ideal)} {x1 x3 x4 x5 x6 x7 x8 x9} (h : Carried W x1 x3 x4 x5 x6 x7 x8 x9) :
    Carried (StableHlo.after hostOps6 W) x1 x3 x4 x5 x6 x7 x8 x9 where
  src := (show StableHlo.after hostOps6 W (Proc.devRef .tc main_v3) = W (Proc.devRef .tc main_v3) by not_written).trans h.src
  dst := (show StableHlo.after hostOps6 W (Proc.devRef .tc main_v6) = W (Proc.devRef .tc main_v6) by not_written).trans h.dst
  norm := (show StableHlo.after hostOps6 W (Proc.devRef .tc main_v29) = W (Proc.devRef .tc main_v29) by not_written).trans h.norm
  b1 := (show StableHlo.after hostOps6 W (Proc.devRef .tc main_arg3) = W (Proc.devRef .tc main_arg3) by not_written).trans h.b1
  w2 := (show StableHlo.after hostOps6 W (Proc.devRef .tc main_arg4) = W (Proc.devRef .tc main_arg4) by not_written).trans h.w2
  b2 := (show StableHlo.after hostOps6 W (Proc.devRef .tc main_arg5) = W (Proc.devRef .tc main_arg5) by not_written).trans h.b2
  w3 := (show StableHlo.after hostOps6 W (Proc.devRef .tc main_arg6) = W (Proc.devRef .tc main_arg6) by not_written).trans h.w3
  b3 := (show StableHlo.after hostOps6 W (Proc.devRef .tc main_arg7) = W (Proc.devRef .tc main_arg7) by not_written).trans h.b3
  wo := (show StableHlo.after hostOps6 W (Proc.devRef .tc main_arg8) = W (Proc.devRef .tc main_arg8) by not_written).trans h.wo
  bo := (show StableHlo.after hostOps6 W (Proc.devRef .tc main_arg9) = W (Proc.devRef .tc main_arg9) by not_written).trans h.bo

variable (m : (ℓ : Loc nD τ sig) → Buf (Elt Ideal) ℓ) (ρ : Dev nD → PrngReg) (c : Dev nD)

/-- Region 0 leaves every carried buffer as it found it: none is its output, and an input array is only read. -/
theorem carried_region0 {x1 x3 x4 x5 x6 x7 x8 x9} (h : Carried (W3 m ρ c) x1 x3 x4 x5 x6 x7 x8 x9) : Carried (W4 m ρ c) x1 x3 x4 x5 x6 x7 x8 x9 where
  src := (W4_of_ne m ρ c main_v3 (by decide)).trans h.src
  dst := (W4_of_ne m ρ c main_v6 (by decide)).trans h.dst
  norm := (W4_of_ne m ρ c main_v29 (by decide)).trans h.norm
  b1 := (W4_of_ne m ρ c main_arg3 (by decide)).trans h.b1
  w2 := (W4_of_ne m ρ c main_arg4 (by decide)).trans h.w2
  b2 := (W4_of_ne m ρ c main_arg5 (by decide)).trans h.b2
  w3 := (W4_of_ne m ρ c main_arg6 (by decide)).trans h.w3
  b3 := (W4_of_ne m ρ c main_arg7 (by decide)).trans h.b3
  wo := (W4_of_ne m ρ c main_arg8 (by decide)).trans h.wo
  bo := (W4_of_ne m ρ c main_arg9 (by decide)).trans h.bo

/-- Region 1 leaves every carried buffer as it found it: none is its output, and an input array is only read. -/
theorem carried_region1 {x1 x3 x4 x5 x6 x7 x8 x9} (h : Carried (W5 m ρ c) x1 x3 x4 x5 x6 x7 x8 x9) : Carried (W6 m ρ c) x1 x3 x4 x5 x6 x7 x8 x9 where
  src := (W6_of_ne m ρ c main_v3 (by decide)).trans h.src
  dst := (W6_of_ne m ρ c main_v6 (by decide)).trans h.dst
  norm := (W6_of_ne m ρ c main_v29 (by decide)).trans h.norm
  b1 := (W6_of_ne m ρ c main_arg3 (by decide)).trans h.b1
  w2 := (W6_of_ne m ρ c main_arg4 (by decide)).trans h.w2
  b2 := (W6_of_ne m ρ c main_arg5 (by decide)).trans h.b2
  w3 := (W6_of_ne m ρ c main_arg6 (by decide)).trans h.w3
  b3 := (W6_of_ne m ρ c main_arg7 (by decide)).trans h.b3
  wo := (W6_of_ne m ρ c main_arg8 (by decide)).trans h.wo
  bo := (W6_of_ne m ρ c main_arg9 (by decide)).trans h.bo

/-- Region 2 leaves every carried buffer as it found it: none is its output, and an input array is only read. -/
theorem carried_region2 {x1 x3 x4 x5 x6 x7 x8 x9} (h : Carried (W7 m ρ c) x1 x3 x4 x5 x6 x7 x8 x9) : Carried (W8 m ρ c) x1 x3 x4 x5 x6 x7 x8 x9 where
  src := (W8_of_ne m ρ c main_v3 (by decide)).trans h.src
  dst := (W8_of_ne m ρ c main_v6 (by decide)).trans h.dst
  norm := (W8_of_ne m ρ c main_v29 (by decide)).trans h.norm
  b1 := (W8_of_ne m ρ c main_arg3 (by decide)).trans h.b1
  w2 := ((W8_arr m ρ c 1).trans (((dat2 (V7 m ρ) c).arrAt_in 1 rfl _).trans (A_eq2 (V7 m ρ) c 1))).trans h.w2
  b2 := (W8_of_ne m ρ c main_arg5 (by decide)).trans h.b2
  w3 := (W8_of_ne m ρ c main_arg6 (by decide)).trans h.w3
  b3 := (W8_of_ne m ρ c main_arg7 (by decide)).trans h.b3
  wo := (W8_of_ne m ρ c main_arg8 (by decide)).trans h.wo
  bo := (W8_of_ne m ρ c main_arg9 (by decide)).trans h.bo

/-- Region 3 leaves every carried buffer as it found it: none is its output, and an input array is only read. -/
theorem carried_region3 {x1 x3 x4 x5 x6 x7 x8 x9} (h : Carried (W9 m ρ c) x1 x3 x4 x5 x6 x7 x8 x9) : Carried (W10 m ρ c) x1 x3 x4 x5 x6 x7 x8 x9 where
  src := (W10_of_ne m ρ c main_v3 (by decide)).trans h.src
  dst := (W10_of_ne m ρ c main_v6 (by decide)).trans h.dst
  norm := (W10_of_ne m ρ c main_v29 (by decide)).trans h.norm
  b1 := (W10_of_ne m ρ c main_arg3 (by decide)).trans h.b1
  w2 := (W10_of_ne m ρ c main_arg4 (by decide)).trans h.w2
  b2 := (W10_of_ne m ρ c main_arg5 (by decide)).trans h.b2
  w3 := (W10_of_ne m ρ c main_arg6 (by decide)).trans h.w3
  b3 := (W10_of_ne m ρ c main_arg7 (by decide)).trans h.b3
  wo := (W10_of_ne m ρ c main_arg8 (by decide)).trans h.wo
  bo := (W10_of_ne m ρ c main_arg9 (by decide)).trans h.bo

/-- Region 4 leaves every carried buffer as it found it: none is its output, and an input array is only read. -/
theorem carried_region4 {x1 x3 x4 x5 x6 x7 x8 x9} (h : Carried (W11 m ρ c) x1 x3 x4 x5 x6 x7 x8 x9) : Carried (W12 m ρ c) x1 x3 x4 x5 x6 x7 x8 x9 where
  src := (W12_of_ne m ρ c main_v3 (by decide)).trans h.src
  dst := (W12_of_ne m ρ c main_v6 (by decide)).trans h.dst
  norm := (W12_of_ne m ρ c main_v29 (by decide)).trans h.norm
  b1 := (W12_of_ne m ρ c main_arg3 (by decide)).trans h.b1
  w2 := (W12_of_ne m ρ c main_arg4 (by decide)).trans h.w2
  b2 := (W12_of_ne m ρ c main_arg5 (by decide)).trans h.b2
  w3 := ((W12_arr m ρ c 1).trans (((dat4 (V11 m ρ) c).arrAt_in 1 rfl _).trans (A_eq4 (V11 m ρ) c 1))).trans h.w3
  b3 := (W12_of_ne m ρ c main_arg7 (by decide)).trans h.b3
  wo := (W12_of_ne m ρ c main_arg8 (by decide)).trans h.wo
  bo := (W12_of_ne m ρ c main_arg9 (by decide)).trans h.bo

/-- Region 5 leaves every carried buffer as it found it: none is its output, and an input array is only read. -/
theorem carried_region5 {x1 x3 x4 x5 x6 x7 x8 x9} (h : Carried (W13 m ρ c) x1 x3 x4 x5 x6 x7 x8 x9) : Carried (W14 m ρ c) x1 x3 x4 x5 x6 x7 x8 x9 where
  src := (W14_of_ne m ρ c main_v3 (by decide)).trans h.src
  dst := (W14_of_ne m ρ c main_v6 (by decide)).trans h.dst
  norm := (W14_of_ne m ρ c main_v29 (by decide)).trans h.norm
  b1 := (W14_of_ne m ρ c main_arg3 (by decide)).trans h.b1
  w2 := (W14_of_ne m ρ c main_arg4 (by decide)).trans h.w2
  b2 := (W14_of_ne m ρ c main_arg5 (by decide)).trans h.b2
  w3 := (W14_of_ne m ρ c main_arg6 (by decide)).trans h.w3
  b3 := (W14_of_ne m ρ c main_arg7 (by decide)).trans h.b3
  wo := (W14_of_ne m ρ c main_arg8 (by decide)).trans h.wo
  bo := (W14_of_ne m ρ c main_arg9 (by decide)).trans h.bo

end Cert.KernelIdeal.Fold

end
-- ==== Proof.BlockMath.lean ====
/-
  The kernel bodies read at an index, over the extended reals.

  A linear body's block holds, at row p and column q,  Σ_k x(p,k) · w(k,q) + b(0,q):  the matrix unit accumulates the
  product into a block of zeros, the casts of both operands to bf16 are the identity on extended reals, and the
  one-row bias is repeated down the rows.  A bias-and-clamp body's block holds  max (x(p,q) + b(0,q)) 0.
-/
import proofs.«131737_j26491358281754_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockMath

open Idealize.ShloMosaic Idealize.ShloMosaic.TcCoe Idealize.ShloMosaic.ValueIdx Cert.KernelIdeal Cert.KernelIdeal.Gen

/-! ## The matrix unit's product into a zero block, entry by entry -/

private theorem lhs_row_32_S32x64 (i : S10000x64.Idx) (s : dot_S10000x32_S32x64_S10000x64_1_0_0_1_n_n.contr.Idx) :
    (dot_S10000x32_S32x64_S10000x64_1_0_0_1_n_n.lhsIdx i s 0).val = (i 0).val := by
  unfold DotDims.lhsIdx
  rw [dif_neg (show ¬(0 : Fin S10000x32.rank) ∈ dot_S10000x32_S32x64_S10000x64_1_0_0_1_n_n.lhsBatch by decide),
    dif_pos (show (0 : Fin S10000x32.rank) ∈ dot_S10000x32_S32x64_S10000x64_1_0_0_1_n_n.lhsNonContracting by decide)]
  rfl

private theorem rhs_col_32_S32x64 (i : S10000x64.Idx) (s : dot_S10000x32_S32x64_S10000x64_1_0_0_1_n_n.contr.Idx) :
    (dot_S10000x32_S32x64_S10000x64_1_0_0_1_n_n.rhsIdx i s 1).val = (i 1).val := by
  unfold DotDims.rhsIdx
  rw [dif_neg (show ¬(1 : Fin S32x64.rank) ∈ dot_S10000x32_S32x64_S10000x64_1_0_0_1_n_n.rhsBatch by decide),
    dif_pos (show (1 : Fin S32x64.rank) ∈ dot_S10000x32_S32x64_S10000x64_1_0_0_1_n_n.rhsNonContracting by decide)]
  rfl

/-- A [10000, 32] block times a [32, 64] matrix, accumulated into zeros: entry (p, q) is Σ_k a(p,k) · b(k,q). -/
theorem matmul_32_64_apply (a : FVec Ideal S10000x32 .bf16) (b : FVec Ideal S32x64 .bf16) (p : Fin 10000) (q : Fin 64) :
    matmul dot_S10000x32_S32x64_S10000x64_1_0_0_1_n_n none a b (constant S10000x64 .f32 0x00000000#32) (ix2 p q)
      = ∑ k : Fin 32, a (ix2 p k) * b (ix2 k q) := by
  refine (Ideal.matmul_constant_zero_apply dot_S10000x32_S32x64_S10000x64_1_0_0_1_n_n none a b (ix2 p q)).trans ?_
  rw [← Equiv.sum_comp (contrEquiv1 dot_S10000x32_S32x64_S10000x64_1_0_0_1_n_n 32 rfl rfl).symm]
  refine Finset.sum_congr rfl fun k _ => ?_
  have hk := contrEquiv1_symm_val dot_S10000x32_S32x64_S10000x64_1_0_0_1_n_n 32 rfl rfl k
  have el : dot_S10000x32_S32x64_S10000x64_1_0_0_1_n_n.lhsIdx (ix2 p q) ((contrEquiv1 dot_S10000x32_S32x64_S10000x64_1_0_0_1_n_n 32 rfl rfl).symm k) = ix2 p k :=
    funext fun d => Fin.ext (by
      match d with
      | ⟨0, _⟩ => exact lhs_row_32_S32x64 _ _
      | ⟨1, _⟩ => exact (dot_S10000x32_S32x64_S10000x64_1_0_0_1_n_n.lhsIdx_val_of_single rfl _ _).trans hk)
  have er : dot_S10000x32_S32x64_S10000x64_1_0_0_1_n_n.rhsIdx (ix2 p q) ((contrEquiv1 dot_S10000x32_S32x64_S10000x64_1_0_0_1_n_n 32 rfl rfl).symm k) = ix2 k q :=
    funext fun d => Fin.ext (by
      match d with
      | ⟨0, _⟩ => exact (dot_S10000x32_S32x64_S10000x64_1_0_0_1_n_n.rhsIdx_val_of_single rfl _ _).trans hk
      | ⟨1, _⟩ => exact rhs_col_32_S32x64 _ _)
  rw [el, er]

private theorem lhs_row_64_S64x64 (i : S10000x64.Idx) (s : dot_S10000x64_S64x64_S10000x64_1_0_0_1_n_n.contr.Idx) :
    (dot_S10000x64_S64x64_S10000x64_1_0_0_1_n_n.lhsIdx i s 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl

private theorem rhs_col_64_S64x64 (i : S10000x64.Idx) (s : dot_S10000x64_S64x64_S10000x64_1_0_0_1_n_n.contr.Idx) :
    (dot_S10000x64_S64x64_S10000x64_1_0_0_1_n_n.rhsIdx i s 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- A [10000, 64] block times a [64, 64] matrix, accumulated into zeros: entry (p, q) is Σ_k a(p,k) · b(k,q). -/
theorem matmul_64_64_apply (a : FVec Ideal S10000x64 .bf16) (b : FVec Ideal S64x64 .bf16) (p : Fin 10000) (q : Fin 64) :
    matmul dot_S10000x64_S64x64_S10000x64_1_0_0_1_n_n none a b (constant S10000x64 .f32 0x00000000#32) (ix2 p q)
      = ∑ k : Fin 64, a (ix2 p k) * b (ix2 k q) := by
  refine (Ideal.matmul_constant_zero_apply dot_S10000x64_S64x64_S10000x64_1_0_0_1_n_n none a b (ix2 p q)).trans ?_
  rw [← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k :=
    funext fun d => Fin.ext (by
      match d with
      | ⟨0, _⟩ => exact lhs_row_64_S64x64 _ _
      | ⟨1, _⟩ => exact (dot_S10000x64_S64x64_S10000x64_1_0_0_1_n_n.lhsIdx_val_of_single rfl _ _).trans hk)
  have er : dot_S10000x64_S64x64_S10000x64_1_0_0_1_n_n.rhsIdx (ix2 p q) ((contrEquiv1 dot_S10000x64_S64x64_S10000x64_1_0_0_1_n_n 64 rfl rfl).symm k) = ix2 k q :=
    funext fun d => Fin.ext (by
      match d with
      | ⟨0, _⟩ => exact (dot_S10000x64_S64x64_S10000x64_1_0_0_1_n_n.rhsIdx_val_of_single rfl _ _).trans hk
      | ⟨1, _⟩ => exact rhs_col_64_S64x64 _ _)
  rw [el, er]

private theorem lhs_row_64_S64x2 (i : S10000x2.Idx) (s : dot_S10000x64_S64x2_S10000x2_1_0_0_1_n_n.contr.Idx) :
    (dot_S10000x64_S64x2_S10000x2_1_0_0_1_n_n.lhsIdx i s 0).val = (i 0).val := by
  unfold DotDims.lhsIdx
  rw [dif_neg (show ¬(0 : Fin S10000x64.rank) ∈ dot_S10000x64_S64x2_S10000x2_1_0_0_1_n_n.lhsBatch by decide),
    dif_pos (show (0 : Fin S10000x64.rank) ∈ dot_S10000x64_S64x2_S10000x2_1_0_0_1_n_n.lhsNonContracting by decide)]
  rfl

private theorem rhs_col_64_S64x2 (i : S10000x2.Idx) (s : dot_S10000x64_S64x2_S10000x2_1_0_0_1_n_n.contr.Idx) :
    (dot_S10000x64_S64x2_S10000x2_1_0_0_1_n_n.rhsIdx i s 1).val = (i 1).val := by
  unfold DotDims.rhsIdx
  rw [dif_neg (show ¬(1 : Fin S64x2.rank) ∈ dot_S10000x64_S64x2_S10000x2_1_0_0_1_n_n.rhsBatch by decide),
    dif_pos (show (1 : Fin S64x2.rank) ∈ dot_S10000x64_S64x2_S10000x2_1_0_0_1_n_n.rhsNonContracting by decide)]
  rfl

/-- A [10000, 64] block times a [64, 2] matrix, accumulated into zeros: entry (p, q) is Σ_k a(p,k) · b(k,q). -/
theorem matmul_64_2_apply (a : FVec Ideal S10000x64 .bf16) (b : FVec Ideal S64x2 .bf16) (p : Fin 10000) (q : Fin 2) :
    matmul dot_S10000x64_S64x2_S10000x2_1_0_0_1_n_n none a b (constant S10000x2 .f32 0x00000000#32) (ix2 p q)
      = ∑ k : Fin 64, a (ix2 p k) * b (ix2 k q) := by
  refine (Ideal.matmul_constant_zero_apply dot_S10000x64_S64x2_S10000x2_1_0_0_1_n_n none a b (ix2 p q)).trans ?_
  rw [← Equiv.sum_comp (contrEquiv1 dot_S10000x64_S64x2_S10000x2_1_0_0_1_n_n 64 rfl rfl).symm]
  refine Finset.sum_congr rfl fun k _ => ?_
  have hk := contrEquiv1_symm_val dot_S10000x64_S64x2_S10000x2_1_0_0_1_n_n 64 rfl rfl k
  have el : dot_S10000x64_S64x2_S10000x2_1_0_0_1_n_n.lhsIdx (ix2 p q) ((contrEquiv1 dot_S10000x64_S64x2_S10000x2_1_0_0_1_n_n 64 rfl rfl).symm k) = ix2 p k :=
    funext fun d => Fin.ext (by
      match d with
      | ⟨0, _⟩ => exact lhs_row_64_S64x2 _ _
      | ⟨1, _⟩ => exact (dot_S10000x64_S64x2_S10000x2_1_0_0_1_n_n.lhsIdx_val_of_single rfl _ _).trans hk)
  have er : dot_S10000x64_S64x2_S10000x2_1_0_0_1_n_n.rhsIdx (ix2 p q) ((contrEquiv1 dot_S10000x64_S64x2_S10000x2_1_0_0_1_n_n 64 rfl rfl).symm k) = ix2 k q :=
    funext fun d => Fin.ext (by
      match d with
      | ⟨0, _⟩ => exact (dot_S10000x64_S64x2_S10000x2_1_0_0_1_n_n.rhsIdx_val_of_single rfl _ _).trans hk
      | ⟨1, _⟩ => exact rhs_col_64_S64x2 _ _)
  rw [el, er]

/-! ## The bodies -/

/-- The first layer's linear body at (p, q):  Σ_k x(p,k) · w(k,q) + b(0,q). -/
theorem linear0_apply (x : Vec Ideal S10000x32 .f32) (w : Vec Ideal S32x64 .f32) (b : Vec Ideal S1x64 .f32)
    (p : Fin 10000) (q : Fin 64) :
    k0_pay1 x w b (ix2 p q) = (∑ k : Fin 32, x (ix2 p k) * w (ix2 k q)) + b (ix2 (0 : Fin 1) q) := by
  unfold k0_pay1
  refine (addf_apply _ _ _).trans ?_
  rw [shapeCast_self, shapeCast_self]
  refine congrArg₂ (· + ·) ?_ (broadcastTo_1b_ab_apply b _ p q)
  exact matmul_32_64_apply _ _ p q

/-- The second layer's linear body at (p, q):  Σ_k x(p,k) · w(k,q) + b(0,q). -/
theorem linear2_apply (x : Vec Ideal S10000x64 .f32) (w : Vec Ideal S64x64 .f32) (b : Vec Ideal S1x64 .f32)
    (p : Fin 10000) (q : Fin 64) :
    k2_pay1 x w b (ix2 p q) = (∑ k : Fin 64, x (ix2 p k) * w (ix2 k q)) + b (ix2 (0 : Fin 1) q) := by
  unfold k2_pay1
  refine (addf_apply _ _ _).trans ?_
  rw [shapeCast_self, shapeCast_self, shapeCast_self]
  refine congrArg₂ (· + ·) ?_ (broadcastTo_1b_ab_apply b _ p q)
  exact matmul_64_64_apply _ _ p q

/-- The third layer's linear body at (p, q):  Σ_k x(p,k) · w(k,q) + b(0,q). -/
theorem linear4_apply (x : Vec Ideal S10000x64 .f32) (w : Vec Ideal S64x64 .f32) (b : Vec Ideal S1x64 .f32)
    (p : Fin 10000) (q : Fin 64) :
    k4_pay1 x w b (ix2 p q) = (∑ k : Fin 64, x (ix2 p k) * w (ix2 k q)) + b (ix2 (0 : Fin 1) q) := by
  unfold k4_pay1
  refine (addf_apply _ _ _).trans ?_
  rw [shapeCast_self, shapeCast_self, shapeCast_self]
  refine congrArg₂ (· + ·) ?_ (broadcastTo_1b_ab_apply b _ p q)
  exact matmul_64_64_apply _ _ p q

/-- The output layer's linear body at (p, q):  Σ_k x(p,k) · w(k,q) + b(0,q). -/
theorem linear6_apply (x : Vec Ideal S10000x64 .f32) (w : Vec Ideal S64x2 .f32) (b : Vec Ideal S1x2 .f32)
    (p : Fin 10000) (q : Fin 2) :
    k6_pay1 x w b (ix2 p q) = (∑ k : Fin 64, x (ix2 p k) * w (ix2 k q)) + b (ix2 (0 : Fin 1) q) := by
  unfold k6_pay1
  refine (addf_apply _ _ _).trans ?_
  rw [shapeCast_self, shapeCast_self, shapeCast_self]
  refine congrArg₂ (· + ·) ?_ (broadcastTo_1b_ab_apply b _ p q)
  exact matmul_64_2_apply _ _ p q

/-- The first bias-and-clamp body at (p, q):  max (x(p,q) + b(0,q)) 0, the zero being the body's own literal. -/
theorem biasClamp1_apply (b : Vec Ideal S1x64 .f32) (x : Vec Ideal S10000x64 .f32) (p : Fin 10000) (q : Fin 64) :
    k1_pay1 b x (ix2 p q) = max (x (ix2 p q) + b (ix2 (0 : Fin 1) q)) (Ideal.ofBits .f32 0x00000000#32) := by
  unfold k1_pay1
  refine (maximumf_apply _ _ _).trans ?_
  refine congrArg₂ max ?_ rfl
  refine (addf_apply _ _ _).trans ?_
  rw [shapeCast_self, shapeCast_self, shapeCast_self]
  exact congrArg (x (ix2 p q) + ·) (broadcastTo_1b_ab_apply b _ p q)

/-- The second bias-and-clamp body at (p, q):  max (x(p,q) + b(0,q)) 0, the zero being the body's own literal. -/
theorem biasClamp3_apply (b : Vec Ideal S1x64 .f32) (x : Vec Ideal S10000x64 .f32) (p : Fin 10000) (q : Fin 64) :
    k3_pay1 b x (ix2 p q) = max (x (ix2 p q) + b (ix2 (0 : Fin 1) q)) (Ideal.ofBits .f32 0x00000000#32) := by
  unfold k3_pay1
  refine (maximumf_apply _ _ _).trans ?_
  refine congrArg₂ max ?_ rfl
  refine (addf_apply _ _ _).trans ?_
  rw [shapeCast_self, shapeCast_self, shapeCast_self]
  exact congrArg (x (ix2 p q) + ·) (broadcastTo_1b_ab_apply b _ p q)

/-- The third bias-and-clamp body at (p, q):  max (x(p,q) + b(0,q)) 0, the zero being the body's own literal. -/
theorem biasClamp5_apply (b : Vec Ideal S1x64 .f32) (x : Vec Ideal S10000x64 .f32) (p : Fin 10000) (q : Fin 64) :
    k5_pay1 b x (ix2 p q) = max (x (ix2 p q) + b (ix2 (0 : Fin 1) q)) (Ideal.ofBits .f32 0x00000000#32) := by
  unfold k5_pay1
  refine (maximumf_apply _ _ _).trans ?_
  refine congrArg₂ max ?_ rfl
  refine (addf_apply _ _ _).trans ?_
  rw [shapeCast_self, shapeCast_self, shapeCast_self]
  exact congrArg (x (ix2 p q) + ·) (broadcastTo_1b_ab_apply b _ p q)

end Cert.KernelIdeal.BlockMath

end
-- ==== Proof.Linear1.lean ====
/-
  The first linear region (x · W1 + the zero row), read off its generated frame data: the output array after the region as ONE function of the three input arrays.

  The grid has ten points; point t takes rows 10000·t … 10000·t + 9999 of the input, the whole weight matrix and the
  one-row bias, and writes rows 10000·t … 10000·t + 9999 of the output. Every row of the output lies in exactly the
  block of point  row / 10000, so the ten written blocks together are the whole array, and the array ends holding
      out(i, j) = Σ_k x(i,k) · w(k,j) + b(0,j).
-/
import proofs.«131737_j26491358281754_1_alg».proof.Proof.Gen.KernelIdeal.Frame
import proofs.«131737_j26491358281754_1_alg».proof.Proof.BlockMath

set_option maxRecDepth 16384

noncomputable section

namespace Cert.KernelIdeal.Linear1

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.BlockMath

/-- The layer as one function of whole arrays: entry (i, j) is Σ_k x(i,k) · w(k,j) + b(0,j). -/
def whole (X : S100000x32.Idx → EReal) (Wt : S32x64.Idx → EReal) (B : S1x64.Idx → EReal) : S100000x64.Idx → EReal :=
  fun i => (∑ k : Fin 32, X (ix2 (⟨(i 0).val, (i 0).isLt⟩ : Fin 100000) k) * Wt (ix2 k (⟨(i 1).val, (i 1).isLt⟩ : Fin 64)))
    + B (ix2 (0 : Fin 1) (⟨(i 1).val, (i 1).isLt⟩ : Fin 64))

theorem zero_offsets : (![0, 0] : Fin 2 → Nat) = fun _ => 0 := funext fun a => by fin_cases a <;> rfl

/-- The one store of the body covers its whole block, so the block after the body is the body's value. -/
theorem out_eq (x0 : Vec Ideal S10000x32 .f32) (x1 : Vec Ideal S32x64 .f32) (x2 : Vec Ideal S1x64 .f32) :
    out0_3 (F := Ideal) x0 x1 x2 = k0_pay1 x0 x1 x2 := by
  unfold out0_3
  rw [View.canon_unit_zero zero_offsets]
  simp only [View.ld_unit_zero (S := S10000x32) zero_offsets, View.ld_unit_zero (S := S32x64) zero_offsets,
    View.ld_unit_zero (S := S1x64) zero_offsets]

/-- Where each window's block sits at point t: the row blocks move with t, the matrix and the bias stay put. -/
theorem block_positions : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The index arithmetic of one block, over any three arrays: the body's value at (p, q) of block t, read from the
    blocks of the arrays, is the whole-array function at the block's (p, q)-th index. -/
theorem point_eq (t : Fin cfg0.N) (j : S10000x64.Idx) (hj0 : (j 0).val < 10000) (hj1 : (j 1).val < 64)
    (X : S100000x32.Idx → EReal) (Wt : S32x64.Idx → EReal) (B : S1x64.Idx → EReal) :
    (∑ k : Fin 32, X (((cfg0.win 0).blk t).view.emb (ix2 (⟨(j 0).val, hj0⟩ : Fin 10000) k))
        * Wt (((cfg0.win 1).blk t).view.emb (ix2 k (⟨(j 1).val, hj1⟩ : Fin 64))))
      + B (((cfg0.win 2).blk t).view.emb (ix2 (0 : Fin 1) (⟨(j 1).val, hj1⟩ : Fin 64)))
    = whole X Wt B (((cfg0.win 3).blk t).view.emb j) := by
  obtain ⟨e0, e1, e2, e3, e4, e5, e6, e7⟩ := block_positions t
  unfold whole
  have hx : ∀ k : Fin 32, ((cfg0.win 0).blk t).view.emb (ix2 (⟨(j 0).val, hj0⟩ : Fin 10000) k)
      = ix2 (⟨((((cfg0.win 3).blk t).view.emb j) 0).val, ((((cfg0.win 3).blk t).view.emb j) 0).isLt⟩ : Fin 100000) k := fun k => by
    funext a; apply Fin.ext
    match a with
    | ⟨0, _⟩ => show win0_0.index t (0 : Fin 2) * 10000 + 1 * (j 0).val = win0_3.index t (0 : Fin 2) * 10000 + 1 * (j 0).val; omega
    | ⟨1, _⟩ => show win0_0.index t (1 : Fin 2) * 32 + 1 * k.val = k.val; omega
  have hw : ∀ k : Fin 32, ((cfg0.win 1).blk t).view.emb (ix2 k (⟨(j 1).val, hj1⟩ : Fin 64))
      = ix2 k (⟨((((cfg0.win 3).blk t).view.emb j) 1).val, ((((cfg0.win 3).blk t).view.emb j) 1).isLt⟩ : Fin 64) := fun k => by
    funext a; apply Fin.ext
    match a with
    | ⟨0, _⟩ => show win0_1.index t (0 : Fin 2) * 32 + 1 * k.val = k.val; omega
    | ⟨1, _⟩ => show win0_1.index t (1 : Fin 2) * 64 + 1 * (j 1).val = win0_3.index t (1 : Fin 2) * 64 + 1 * (j 1).val; omega
  have hb : ((cfg0.win 2).blk t).view.emb (ix2 (0 : Fin 1) (⟨(j 1).val, hj1⟩ : Fin 64))
      = ix2 (0 : Fin 1) (⟨((((cfg0.win 3).blk t).view.emb j) 1).val, ((((cfg0.win 3).blk t).view.emb j) 1).isLt⟩ : Fin 64) := by
    funext a; apply Fin.ext
    match a with
    | ⟨0, _⟩ => show win0_2.index t (0 : Fin 2) * 1 + 1 * 0 = 0; omega
    | ⟨1, _⟩ => show win0_2.index t (1 : Fin 2) * 64 + 1 * (j 1).val = win0_3.index t (1 : Fin 2) * 64 + 1 * (j 1).val; omega
  rw [hb]
  refine congrArg (· + _) (Finset.sum_congr rfl fun k _ => ?_)
  rw [hx k, hw k]

variable (V : (c : Dev nD) → (b : Ref sig .tc) → Buf (Elt Ideal) ((c : Thread nD τ).loc b))

/-- What point t writes back is block t of the whole-array function of the arrays as the region finds them. -/
theorem flushed_eq (c : Dev nD) (t : Fin cfg0.N) :
    (dat0 V c).flushed 3 t
      = ((cfg0.win 3).blk t).view.read (Elt Ideal) (whole (V c main_arg0) (V c main_arg2) (V c main_v30)) := by
  show (cfg0.win 3).cut (grid0.coords t) ((dat0 V c).after 3 t) = _
  rw [after0_3, out_eq]
  funext j
  have hj0 : (j 0).val < 10000 := (j 0).isLt
  have hj1 : (j 1).val < 64 := (j 1).isLt
  refine ((congrArg (k0_pay1 _ _ _) (eq_ix2 j)).trans (linear0_apply _ _ _ (⟨(j 0).val, hj0⟩ : Fin 10000) (⟨(j 1).val, hj1⟩ : Fin 64))).trans ?_
  exact point_eq t j hj0 hj1 (V c main_arg0) (V c main_arg2) (V c main_v30)

/-- An index of the output array is in point t's block iff each coordinate is in the block's range on its axis. -/
theorem mem_block (t : Fin cfg0.N) (i : S100000x64.Idx) :
    i ∈ ((cfg0.win 3).blk t).view.set
      ↔ ∀ a : Fin 2, win0_3.index t a * S10000x64.size a ≤ (i a).val ∧ (i a).val < win0_3.index t a * S10000x64.size a + S10000x64.size a := by
  show i ∈ ((View.whole main_v31).slice (win0_3.rect t)).set ↔ _
  rw [View.set_slice_whole, Rect.mem_set_unit]
  exact Iff.rfl

/-- The ten written blocks are the whole array: row i is in the block of point i / 10000. -/
theorem covered (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  let t : Fin cfg0.N := ⟨(i 0).val / 10000, by show _ < grid0.N; rw [N_0]; omega⟩
  obtain ⟨e0, e1, e2, e3, e4, e5, e6, e7⟩ := block_positions t
  have ht : t.val = (i 0).val / 10000 := rfl
  refine ⟨t, flush0_3 t, ?_⟩
  rw [mem_block]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

/-- The output array after the region: the layer's whole-array function of the three input arrays as the region
    finds them. -/
theorem final (c : Dev nD) :
    (dat0 V c).arrAt 3 cfg0.N = whole (V c main_arg0) (V c main_arg2) (V c main_v30) :=
  (dat0 V c).arrAt_eq_of_cover 3 _ (fun t _ => flushed_eq V c t) covered

end Cert.KernelIdeal.Linear1

end
-- ==== Proof.Linear2.lean ====
/-
  The second linear region (h1 · W2 + the zero row), read off its generated frame data: the output array after the region as ONE function of the three input arrays.

  The grid has ten points; point t takes rows 10000·t … 10000·t + 9999 of the input, the whole weight matrix and the
  one-row bias, and writes rows 10000·t … 10000·t + 9999 of the output. Every row of the output lies in exactly the
  block of point  row / 10000, so the ten written blocks together are the whole array, and the array ends holding
      out(i, j) = Σ_k x(i,k) · w(k,j) + b(0,j).
-/
import proofs.«131737_j26491358281754_1_alg».proof.Proof.Gen.KernelIdeal.Frame
import proofs.«131737_j26491358281754_1_alg».proof.Proof.BlockMath

set_option maxRecDepth 16384

noncomputable section

namespace Cert.KernelIdeal.Linear2

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.BlockMath

/-- The layer as one function of whole arrays: entry (i, j) is Σ_k x(i,k) · w(k,j) + b(0,j). -/
def whole (X : S100000x64.Idx → EReal) (Wt : S64x64.Idx → EReal) (B : S1x64.Idx → EReal) : S100000x64.Idx → EReal :=
  fun i => (∑ k : Fin 64, X (ix2 (⟨(i 0).val, (i 0).isLt⟩ : Fin 100000) k) * Wt (ix2 k (⟨(i 1).val, (i 1).isLt⟩ : Fin 64)))
    + B (ix2 (0 : Fin 1) (⟨(i 1).val, (i 1).isLt⟩ : Fin 64))

theorem zero_offsets : (![0, 0] : Fin 2 → Nat) = fun _ => 0 := funext fun a => by fin_cases a <;> rfl

/-- The one store of the body covers its whole block, so the block after the body is the body's value. -/
theorem out_eq (x0 : Vec Ideal S10000x64 .f32) (x1 : Vec Ideal S64x64 .f32) (x2 : Vec Ideal S1x64 .f32) :
    out2_3 (F := Ideal) x0 x1 x2 = k2_pay1 x0 x1 x2 := by
  unfold out2_3
  rw [View.canon_unit_zero zero_offsets]
  simp only [View.ld_unit_zero (S := S10000x64) zero_offsets, View.ld_unit_zero (S := S64x64) zero_offsets,
    View.ld_unit_zero (S := S1x64) zero_offsets]

/-- Where each window's block sits at point t: the row blocks move with t, the matrix and the bias stay put. -/
theorem block_positions : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The index arithmetic of one block, over any three arrays: the body's value at (p, q) of block t, read from the
    blocks of the arrays, is the whole-array function at the block's (p, q)-th index. -/
theorem point_eq (t : Fin cfg2.N) (j : S10000x64.Idx) (hj0 : (j 0).val < 10000) (hj1 : (j 1).val < 64)
    (X : S100000x64.Idx → EReal) (Wt : S64x64.Idx → EReal) (B : S1x64.Idx → EReal) :
    (∑ k : Fin 64, X (((cfg2.win 0).blk t).view.emb (ix2 (⟨(j 0).val, hj0⟩ : Fin 10000) k))
        * Wt (((cfg2.win 1).blk t).view.emb (ix2 k (⟨(j 1).val, hj1⟩ : Fin 64))))
      + B (((cfg2.win 2).blk t).view.emb (ix2 (0 : Fin 1) (⟨(j 1).val, hj1⟩ : Fin 64)))
    = whole X Wt B (((cfg2.win 3).blk t).view.emb j) := by
  obtain ⟨e0, e1, e2, e3, e4, e5, e6, e7⟩ := block_positions t
  unfold whole
  have hx : ∀ k : Fin 64, ((cfg2.win 0).blk t).view.emb (ix2 (⟨(j 0).val, hj0⟩ : Fin 10000) k)
      = ix2 (⟨((((cfg2.win 3).blk t).view.emb j) 0).val, ((((cfg2.win 3).blk t).view.emb j) 0).isLt⟩ : Fin 100000) k := fun k => by
    funext a; apply Fin.ext
    match a with
    | ⟨0, _⟩ => show win2_0.index t (0 : Fin 2) * 10000 + 1 * (j 0).val = win2_3.index t (0 : Fin 2) * 10000 + 1 * (j 0).val; omega
    | ⟨1, _⟩ => show win2_0.index t (1 : Fin 2) * 64 + 1 * k.val = k.val; omega
  have hw : ∀ k : Fin 64, ((cfg2.win 1).blk t).view.emb (ix2 k (⟨(j 1).val, hj1⟩ : Fin 64))
      = ix2 k (⟨((((cfg2.win 3).blk t).view.emb j) 1).val, ((((cfg2.win 3).blk t).view.emb j) 1).isLt⟩ : Fin 64) := fun k => by
    funext a; apply Fin.ext
    match a with
    | ⟨0, _⟩ => show win2_1.index t (0 : Fin 2) * 64 + 1 * k.val = k.val; omega
    | ⟨1, _⟩ => show win2_1.index t (1 : Fin 2) * 64 + 1 * (j 1).val = win2_3.index t (1 : Fin 2) * 64 + 1 * (j 1).val; omega
  have hb : ((cfg2.win 2).blk t).view.emb (ix2 (0 : Fin 1) (⟨(j 1).val, hj1⟩ : Fin 64))
      = ix2 (0 : Fin 1) (⟨((((cfg2.win 3).blk t).view.emb j) 1).val, ((((cfg2.win 3).blk t).view.emb j) 1).isLt⟩ : Fin 64) := by
    funext a; apply Fin.ext
    match a with
    | ⟨0, _⟩ => show win2_2.index t (0 : Fin 2) * 1 + 1 * 0 = 0; omega
    | ⟨1, _⟩ => show win2_2.index t (1 : Fin 2) * 64 + 1 * (j 1).val = win2_3.index t (1 : Fin 2) * 64 + 1 * (j 1).val; omega
  rw [hb]
  refine congrArg (· + _) (Finset.sum_congr rfl fun k _ => ?_)
  rw [hx k, hw k]

variable (V : (c : Dev nD) → (b : Ref sig .tc) → Buf (Elt Ideal) ((c : Thread nD τ).loc b))

/-- What point t writes back is block t of the whole-array function of the arrays as the region finds them. -/
theorem flushed_eq (c : Dev nD) (t : Fin cfg2.N) :
    (dat2 V c).flushed 3 t
      = ((cfg2.win 3).blk t).view.read (Elt Ideal) (whole (V c main_v46) (V c main_arg4) (V c main_v47)) := by
  show (cfg2.win 3).cut (grid2.coords t) ((dat2 V c).after 3 t) = _
  rw [after2_3, out_eq]
  funext j
  have hj0 : (j 0).val < 10000 := (j 0).isLt
  have hj1 : (j 1).val < 64 := (j 1).isLt
  refine ((congrArg (k2_pay1 _ _ _) (eq_ix2 j)).trans (linear2_apply _ _ _ (⟨(j 0).val, hj0⟩ : Fin 10000) (⟨(j 1).val, hj1⟩ : Fin 64))).trans ?_
  exact point_eq t j hj0 hj1 (V c main_v46) (V c main_arg4) (V c main_v47)

/-- An index of the output array is in point t's block iff each coordinate is in the block's range on its axis. -/
theorem mem_block (t : Fin cfg2.N) (i : S100000x64.Idx) :
    i ∈ ((cfg2.win 3).blk t).view.set
      ↔ ∀ a : Fin 2, win2_3.index t a * S10000x64.size a ≤ (i a).val ∧ (i a).val < win2_3.index t a * S10000x64.size a + S10000x64.size a := by
  show i ∈ ((View.whole main_v48).slice (win2_3.rect t)).set ↔ _
  rw [View.set_slice_whole, Rect.mem_set_unit]
  exact Iff.rfl

/-- The ten written blocks are the whole array: row i is in the block of point i / 10000. -/
theorem covered (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  let t : Fin cfg2.N := ⟨(i 0).val / 10000, by show _ < grid2.N; rw [N_2]; omega⟩
  obtain ⟨e0, e1, e2, e3, e4, e5, e6, e7⟩ := block_positions t
  have ht : t.val = (i 0).val / 10000 := rfl
  refine ⟨t, flush2_3 t, ?_⟩
  rw [mem_block]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 64 ≤ (i 1).val ∧ (i 1).val < win2_3.index t (1 : Fin 2) * 64 + 64; omega

/-- The output array after the region: the layer's whole-array function of the three input arrays as the region
    finds them. -/
theorem final (c : Dev nD) :
    (dat2 V c).arrAt 3 cfg2.N = whole (V c main_v46) (V c main_arg4) (V c main_v47) :=
  (dat2 V c).arrAt_eq_of_cover 3 _ (fun t _ => flushed_eq V c t) covered

end Cert.KernelIdeal.Linear2

end
-- ==== Proof.Linear3.lean ====
/-
  The third linear region (h2 · W3 + the zero row), read off its generated frame data: the output array after the region as ONE function of the three input arrays.

  The grid has ten points; point t takes rows 10000·t … 10000·t + 9999 of the input, the whole weight matrix and the
  one-row bias, and writes rows 10000·t … 10000·t + 9999 of the output. Every row of the output lies in exactly the
  block of point  row / 10000, so the ten written blocks together are the whole array, and the array ends holding
      out(i, j) = Σ_k x(i,k) · w(k,j) + b(0,j).
-/
import proofs.«131737_j26491358281754_1_alg».proof.Proof.Gen.KernelIdeal.Frame
import proofs.«131737_j26491358281754_1_alg».proof.Proof.BlockMath

set_option maxRecDepth 16384

noncomputable section

namespace Cert.KernelIdeal.Linear3

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.BlockMath

/-- The layer as one function of whole arrays: entry (i, j) is Σ_k x(i,k) · w(k,j) + b(0,j). -/
def whole (X : S100000x64.Idx → EReal) (Wt : S64x64.Idx → EReal) (B : S1x64.Idx → EReal) : S100000x64.Idx → EReal :=
  fun i => (∑ k : Fin 64, X (ix2 (⟨(i 0).val, (i 0).isLt⟩ : Fin 100000) k) * Wt (ix2 k (⟨(i 1).val, (i 1).isLt⟩ : Fin 64)))
    + B (ix2 (0 : Fin 1) (⟨(i 1).val, (i 1).isLt⟩ : Fin 64))

theorem zero_offsets : (![0, 0] : Fin 2 → Nat) = fun _ => 0 := funext fun a => by fin_cases a <;> rfl

/-- The one store of the body covers its whole block, so the block after the body is the body's value. -/
theorem out_eq (x0 : Vec Ideal S10000x64 .f32) (x1 : Vec Ideal S64x64 .f32) (x2 : Vec Ideal S1x64 .f32) :
    out4_3 (F := Ideal) x0 x1 x2 = k4_pay1 x0 x1 x2 := by
  unfold out4_3
  rw [View.canon_unit_zero zero_offsets]
  simp only [View.ld_unit_zero (S := S10000x64) zero_offsets, View.ld_unit_zero (S := S64x64) zero_offsets,
    View.ld_unit_zero (S := S1x64) zero_offsets]

/-- Where each window's block sits at point t: the row blocks move with t, the matrix and the bias stay put. -/
theorem block_positions : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The index arithmetic of one block, over any three arrays: the body's value at (p, q) of block t, read from the
    blocks of the arrays, is the whole-array function at the block's (p, q)-th index. -/
theorem point_eq (t : Fin cfg4.N) (j : S10000x64.Idx) (hj0 : (j 0).val < 10000) (hj1 : (j 1).val < 64)
    (X : S100000x64.Idx → EReal) (Wt : S64x64.Idx → EReal) (B : S1x64.Idx → EReal) :
    (∑ k : Fin 64, X (((cfg4.win 0).blk t).view.emb (ix2 (⟨(j 0).val, hj0⟩ : Fin 10000) k))
        * Wt (((cfg4.win 1).blk t).view.emb (ix2 k (⟨(j 1).val, hj1⟩ : Fin 64))))
      + B (((cfg4.win 2).blk t).view.emb (ix2 (0 : Fin 1) (⟨(j 1).val, hj1⟩ : Fin 64)))
    = whole X Wt B (((cfg4.win 3).blk t).view.emb j) := by
  obtain ⟨e0, e1, e2, e3, e4, e5, e6, e7⟩ := block_positions t
  unfold whole
  have hx : ∀ k : Fin 64, ((cfg4.win 0).blk t).view.emb (ix2 (⟨(j 0).val, hj0⟩ : Fin 10000) k)
      = ix2 (⟨((((cfg4.win 3).blk t).view.emb j) 0).val, ((((cfg4.win 3).blk t).view.emb j) 0).isLt⟩ : Fin 100000) k := fun k => by
    funext a; apply Fin.ext
    match a with
    | ⟨0, _⟩ => show win4_0.index t (0 : Fin 2) * 10000 + 1 * (j 0).val = win4_3.index t (0 : Fin 2) * 10000 + 1 * (j 0).val; omega
    | ⟨1, _⟩ => show win4_0.index t (1 : Fin 2) * 64 + 1 * k.val = k.val; omega
  have hw : ∀ k : Fin 64, ((cfg4.win 1).blk t).view.emb (ix2 k (⟨(j 1).val, hj1⟩ : Fin 64))
      = ix2 k (⟨((((cfg4.win 3).blk t).view.emb j) 1).val, ((((cfg4.win 3).blk t).view.emb j) 1).isLt⟩ : Fin 64) := fun k => by
    funext a; apply Fin.ext
    match a with
    | ⟨0, _⟩ => show win4_1.index t (0 : Fin 2) * 64 + 1 * k.val = k.val; omega
    | ⟨1, _⟩ => show win4_1.index t (1 : Fin 2) * 64 + 1 * (j 1).val = win4_3.index t (1 : Fin 2) * 64 + 1 * (j 1).val; omega
  have hb : ((cfg4.win 2).blk t).view.emb (ix2 (0 : Fin 1) (⟨(j 1).val, hj1⟩ : Fin 64))
      = ix2 (0 : Fin 1) (⟨((((cfg4.win 3).blk t).view.emb j) 1).val, ((((cfg4.win 3).blk t).view.emb j) 1).isLt⟩ : Fin 64) := by
    funext a; apply Fin.ext
    match a with
    | ⟨0, _⟩ => show win4_2.index t (0 : Fin 2) * 1 + 1 * 0 = 0; omega
    | ⟨1, _⟩ => show win4_2.index t (1 : Fin 2) * 64 + 1 * (j 1).val = win4_3.index t (1 : Fin 2) * 64 + 1 * (j 1).val; omega
  rw [hb]
  refine congrArg (· + _) (Finset.sum_congr rfl fun k _ => ?_)
  rw [hx k, hw k]

variable (V : (c : Dev nD) → (b : Ref sig .tc) → Buf (Elt Ideal) ((c : Thread nD τ).loc b))

/-- What point t writes back is block t of the whole-array function of the arrays as the region finds them. -/
theorem flushed_eq (c : Dev nD) (t : Fin cfg4.N) :
    (dat4 V c).flushed 3 t
      = ((cfg4.win 3).blk t).view.read (Elt Ideal) (whole (V c main_v63) (V c main_arg6) (V c main_v64)) := by
  show (cfg4.win 3).cut (grid4.coords t) ((dat4 V c).after 3 t) = _
  rw [after4_3, out_eq]
  funext j
  have hj0 : (j 0).val < 10000 := (j 0).isLt
  have hj1 : (j 1).val < 64 := (j 1).isLt
  refine ((congrArg (k4_pay1 _ _ _) (eq_ix2 j)).trans (linear4_apply _ _ _ (⟨(j 0).val, hj0⟩ : Fin 10000) (⟨(j 1).val, hj1⟩ : Fin 64))).trans ?_
  exact point_eq t j hj0 hj1 (V c main_v63) (V c main_arg6) (V c main_v64)

/-- An index of the output array is in point t's block iff each coordinate is in the block's range on its axis. -/
theorem mem_block (t : Fin cfg4.N) (i : S100000x64.Idx) :
    i ∈ ((cfg4.win 3).blk t).view.set
      ↔ ∀ a : Fin 2, win4_3.index t a * S10000x64.size a ≤ (i a).val ∧ (i a).val < win4_3.index t a * S10000x64.size a + S10000x64.size a := by
  show i ∈ ((View.whole main_v65).slice (win4_3.rect t)).set ↔ _
  rw [View.set_slice_whole, Rect.mem_set_unit]
  exact Iff.rfl

/-- The ten written blocks are the whole array: row i is in the block of point i / 10000. -/
theorem covered (i : S100000x64.Idx) :
    ∃ t : Fin cfg4.N, (cfg4.win 3).flush t = true ∧ i ∈ ((cfg4.win 3).blk t).view.set := by
  have hi0 : (i 0).val < 100000 := (i 0).isLt
  have hi1 : (i 1).val < 64 := (i 1).isLt
  let t : Fin cfg4.N := ⟨(i 0).val / 10000, by show _ < grid4.N; rw [N_4]; omega⟩
  obtain ⟨e0, e1, e2, e3, e4, e5, e6, e7⟩ := block_positions t
  have ht : t.val = (i 0).val / 10000 := rfl
  refine ⟨t, flush4_3 t, ?_⟩
  rw [mem_block]
  intro a
  match a with
  | ⟨0, _⟩ => show win4_3.index t (0 : Fin 2) * 10000 ≤ (i 0).val ∧ (i 0).val < win4_3.index t (0 : Fin 2) * 10000 + 10000; omega
  | ⟨1, _⟩ => show win4_3.index t (1 : Fin 2) * 64 ≤ (i 1).val ∧ (i 1).val < win4_3.index t (1 : Fin 2) * 64 + 64; omega

/-- The output array after the region: the layer's whole-array function of the three input arrays as the region
    finds them. -/
theorem final (c : Dev nD) :
    (dat4 V c).arrAt 3 cfg4.N = whole (V c main_v63) (V c main_arg6) (V c main_v64) :=
  (dat4 V c).arrAt_eq_of_cover 3 _ (fun t _ => flushed_eq V c t) covered

end Cert.KernelIdeal.Linear3

end
-- ==== Proof.Linear4.lean ====
/-
  The output linear region (h3 · Wo + bo), read off its generated frame data: the output array after the region as ONE function of the three input arrays.

  The grid has ten points; point t takes rows 10000·t … 10000·t + 9999 of the input, the whole weight matrix and the
  one-row bias, and writes rows 10000·t … 10000·t + 9999 of the output. Every row of the output lies in exactly the
  block of point  row / 10000, so the ten written blocks together are the whole array, and the array ends holding
      out(i, j) = Σ_k x(i,k) · w(k,j) + b(0,j).
-/
import proofs.«131737_j26491358281754_1_alg».proof.Proof.Gen.KernelIdeal.Frame
import proofs.«131737_j26491358281754_1_alg».proof.Proof.BlockMath

set_option maxRecDepth 16384

noncomputable section

namespace Cert.KernelIdeal.Linear4

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.BlockMath

/-- The layer as one function of whole arrays: entry (i, j) is Σ_k x(i,k) · w(k,j) + b(0,j). -/
def whole (X : S100000x64.Idx → EReal) (Wt : S64x2.Idx → EReal) (B : S1x2.Idx → EReal) : S100000x2.Idx → EReal :=
  fun i => (∑ k : Fin 64, X (ix2 (⟨(i 0).val, (i 0).isLt⟩ : Fin 100000) k) * Wt (ix2 k (⟨(i 1).val, (i 1).isLt⟩ : Fin 2)))
    + B (ix2 (0 : Fin 1) (⟨(i 1).val, (i 1).isLt⟩ : Fin 2))

theorem zero_offsets : (![0, 0] : Fin 2 → Nat) = fun _ => 0 := funext fun a => by fin_cases a <;> rfl

/-- The one store of the body covers its whole block, so the block after the body is the body's value. -/
theorem out_eq (x0 : Vec Ideal S10000x64 .f32) (x1 : Vec Ideal S64x2 .f32) (x2 : Vec Ideal S1x2 .f32) :
    out6_3 (F := Ideal) x0 x1 x2 = k6_pay1 x0 x1 x2 := by
  unfold out6_3
  rw [View.canon_unit_zero zero_offsets]
  simp only [View.ld_unit_zero (S := S10000x64) zero_offsets, View.ld_unit_zero (S := S64x2) zero_offsets,
    View.ld_unit_zero (S := S1x2) zero_offsets]

/-- Where each window's block sits at point t: the row blocks move with t, the matrix and the bias stay put. -/
theorem block_positions : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- The index arithmetic of one block, over any three arrays: the body's value at (p, q) of block t, read from the
    blocks of the arrays, is the whole-array function at the block's (p, q)-th index. -/
theorem point_eq (t : Fin cfg6.N) (j : S10000x2.Idx) (hj0 : (j 0).val < 10000) (hj1 : (j 1).val < 2)
    (X : S100000x64.Idx → EReal) (Wt : S64x2.Idx → EReal) (B : S1x2.Idx → EReal) :
    (∑ k : Fin 64, X (((cfg6.win 0).blk t).view.emb (ix2 (⟨(j 0).val, hj0⟩ : Fin 10000) k))
        * Wt (((cfg6.win 1).blk t).view.emb (ix2 k (⟨(j 1).val, hj1⟩ : Fin 2))))
      + B (((cfg6.win 2).blk t).view.emb (ix2 (0 : Fin 1) (⟨(j 1).val, hj1⟩ : Fin 2)))
    = whole X Wt B (((cfg6.win 3).blk t).view.emb j) := by
  obtain ⟨e0, e1, e2, e3, e4, e5, e6, e7⟩ := block_positions t
  unfold whole
  have hx : ∀ k : Fin 64, ((cfg6.win 0).blk t).view.emb (ix2 (⟨(j 0).val, hj0⟩ : Fin 10000) k)
      = ix2 (⟨((((cfg6.win 3).blk t).view.emb j) 0).val, ((((cfg6.win 3).blk t).view.emb j) 0).isLt⟩ : Fin 100000) k := fun k => by
    funext a; apply Fin.ext
    match a with
    | ⟨0, _⟩ => show win6_0.index t (0 : Fin 2) * 10000 + 1 * (j 0).val = win6_3.index t (0 : Fin 2) * 10000 + 1 * (j 0).val; omega
    | ⟨1, _⟩ => show win6_0.index t (1 : Fin 2) * 64 + 1 * k.val = k.val; omega
  have hw : ∀ k : Fin 64, ((cfg6.win 1).blk t).view.emb (ix2 k (⟨(j 1).val, hj1⟩ : Fin 2))
      = ix2 k (⟨((((cfg6.win 3).blk t).view.emb j) 1).val, ((((cfg6.win 3).blk t).view.emb j) 1).isLt⟩ : Fin 2) := fun k => by
    funext a; apply Fin.ext
    match a with
    | ⟨0, _⟩ => show win6_1.index t (0 : Fin 2) * 64 + 1 * k.val = k.val; omega
    | ⟨1, _⟩ => show win6_1.index t (1 : Fin 2) * 2 + 1 * (j 1).val = win6_3.index t (1 : Fin 2) * 2 + 1 * (j 1).val; omega
  have hb : ((cfg6.win 2).blk t).view.emb (ix2 (0 : Fin 1) (⟨(j 1).val, hj1⟩ : Fin 2))
      = ix2 (0 : Fin 1) (⟨((((cfg6.win 3).blk t).view.emb j) 1).val, ((((cfg6.win 3).blk t).view.emb j) 1).isLt⟩ : Fin 2) := by
    funext a; apply Fin.ext
    match a with
    | ⟨0, _⟩ => show win6_2.index t (0 : Fin 2) * 1 + 1 * 0 = 0; omega
    | ⟨1, _⟩ => show win6_2.index t (1 : Fin 2) * 2 + 1 * (j 1).val = win6_3.index t (1 : Fin 2) * 2 + 1 * (j 1).val; omega
  rw [hb]
  refine congrArg (· + _) (Finset.sum_congr rfl fun k _ => ?_)
  rw [hx k, hw k]

variable (V : (c : Dev nD) → (b : Ref sig .tc) → Buf (Elt Ideal) ((c : Thread nD τ).loc b))

/-- What point t writes back is block t of the whole-array function of the arrays as the region finds them. -/
theorem flushed_eq (c : Dev nD) (t : Fin cfg6.N) :
    (dat6 V c).flushed 3 t
      = ((cfg6.win 3).blk t).view.read (Elt Ideal) (whole (V c main_v80) (V c main_arg8) (V c main_v81)) := by
  show (cfg6.win 3).cut (grid6.coords t) ((dat6 V c).after 3 t) = _
  rw [after6_3, out_eq]
  funext j
  have hj0 : (j 0).val < 10000 := (j 0).isLt
  have hj1 : (j 1).val < 2 := (j 1).isLt
  refine ((congrArg (k6_pay1 _ _ _) (eq_ix2 j)).trans (linear6_apply _ _ _ (⟨(j 0).val, hj0⟩ : Fin 10000) (⟨(j 1).val, hj1⟩ : Fin 2))).trans ?_
  exact point_eq t j hj0 hj1 (V c main_v80) (V c main_arg8) (V c main_v81)

/-- An index of the output array is in point t's block iff each coordinate is in the block's range on its axis. -/
theorem mem_block (t : Fin cfg6.N) (i : S100000x2.Idx) :
    i ∈ ((cfg6.win 3).blk t).view.set
      ↔ ∀ a : Fin 2, win6_3.index t a * S10000x2.size a ≤ (i a).val ∧ (i a).val < win6_3.index t a * S10000x2.size a + S10000x2.size a := by
  show i ∈ ((View.whole main_v82).slice (win6_3.rect t)).set ↔ _
  rw [View.set_slice_whole, Rect.mem_set_unit]
  exact Iff.rfl

/-- The ten written blocks are the whole array: row i is in the block of point i / 10000. -/
theorem covered (i : S100000x2.Idx) :
    ∃ t : Fin cfg6.N, (cfg6.win 3).flush t = true ∧ i ∈ ((cfg6.win 3).blk t).view.set := by
  have hi0 : (i 0).val < 100000 := (i 0).isLt
  have hi1 : (i 1).val < 2 := (i 1).isLt
  let t : Fin cfg6.N := ⟨(i 0).val / 10000, by show _ < grid6.N; rw [N_6]; omega⟩
  obtain ⟨e0, e1, e2, e3, e4, e5, e6, e7⟩ := block_positions t
  have ht : t.val = (i 0).val / 10000 := rfl
  refine ⟨t, flush6_3 t, ?_⟩
  rw [mem_block]
  intro a
  match a with
  | ⟨0, _⟩ => show win6_3.index t (0 : Fin 2) * 10000 ≤ (i 0).val ∧ (i 0).val < win6_3.index t (0 : Fin 2) * 10000 + 10000; omega
  | ⟨1, _⟩ => show win6_3.index t (1 : Fin 2) * 2 ≤ (i 1).val ∧ (i 1).val < win6_3.index t (1 : Fin 2) * 2 + 2; omega

/-- The output array after the region: the layer's whole-array function of the three input arrays as the region
    finds them. -/
theorem final (c : Dev nD) :
    (dat6 V c).arrAt 3 cfg6.N = whole (V c main_v80) (V c main_arg8) (V c main_v81) :=
  (dat6 V c).arrAt_eq_of_cover 3 _ (fun t _ => flushed_eq V c t) covered

end Cert.KernelIdeal.Linear4

end
-- ==== Proof.Clamp1.lean ====
/-
  The first bias-and-clamp region, read off its generated frame data: the output array after the region as ONE function of the two input arrays.

  The grid has ten points; point t takes rows 10000·t … 10000·t + 9999 of the aggregated array and the one-row bias, and
  writes the same rows of the output. The ten written blocks together are the whole array, which ends holding
      out(i, j) = max (x(i,j) + b(0,j)) 0.
-/
import proofs.«131737_j26491358281754_1_alg».proof.Proof.Gen.KernelIdeal.Frame
import proofs.«131737_j26491358281754_1_alg».proof.Proof.BlockMath

set_option maxRecDepth 16384

noncomputable section

namespace Cert.KernelIdeal.Clamp1

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.BlockMath

/-- The layer as one function of whole arrays: entry (i, j) is max (x(i,j) + b(0,j)) 0. -/
def whole (X : S100000x64.Idx → EReal) (B : S1x64.Idx → EReal) : S100000x64.Idx → EReal :=
  fun i => max (X i + B (ix2 (0 : Fin 1) (⟨(i 1).val, (i 1).isLt⟩ : Fin 64))) (Ideal.ofBits .f32 0x00000000#32)

theorem zero_offsets : (![0, 0] : Fin 2 → Nat) = fun _ => 0 := funext fun a => by fin_cases a <;> rfl

/-- The one store of the body covers its whole block, so the block after the body is the body's value. -/
theorem out_eq (x0 : Vec Ideal S10000x64 .f32) (x1 : Vec Ideal S1x64 .f32) :
    out1_2 (F := Ideal) x0 x1 = k1_pay1 x1 x0 := by
  unfold out1_2
  rw [View.canon_unit_zero zero_offsets]
  simp only [View.ld_unit_zero (S := S10000x64) zero_offsets, View.ld_unit_zero (S := S1x64) zero_offsets]

/-- Where each window's block sits at point t: the row blocks move with t, the bias stays put. -/
theorem block_positions : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The index arithmetic of one block, over any two arrays: the body's value at (p, q) of block t, read from the
    blocks of the arrays, is the whole-array function at the block's (p, q)-th index. -/
theorem point_eq (t : Fin cfg1.N) (j : S10000x64.Idx) (hj0 : (j 0).val < 10000) (hj1 : (j 1).val < 64)
    (X : S100000x64.Idx → EReal) (B : S1x64.Idx → EReal) :
    max (X (((cfg1.win 0).blk t).view.emb (ix2 (⟨(j 0).val, hj0⟩ : Fin 10000) (⟨(j 1).val, hj1⟩ : Fin 64)))
        + B (((cfg1.win 1).blk t).view.emb (ix2 (0 : Fin 1) (⟨(j 1).val, hj1⟩ : Fin 64)))) (Ideal.ofBits .f32 0x00000000#32)
    = whole X B (((cfg1.win 2).blk t).view.emb j) := by
  obtain ⟨e0, e1, e2, e3, e4, e5⟩ := block_positions t
  unfold whole
  have hx : ((cfg1.win 0).blk t).view.emb (ix2 (⟨(j 0).val, hj0⟩ : Fin 10000) (⟨(j 1).val, hj1⟩ : Fin 64))
      = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  have hb : ((cfg1.win 1).blk t).view.emb (ix2 (0 : Fin 1) (⟨(j 1).val, hj1⟩ : Fin 64))
      = ix2 (0 : Fin 1) (⟨((((cfg1.win 2).blk t).view.emb j) 1).val, ((((cfg1.win 2).blk t).view.emb j) 1).isLt⟩ : Fin 64) := by
    funext a; apply Fin.ext
    match a with
    | ⟨0, _⟩ => show win1_1.index t (0 : Fin 2) * 1 + 1 * 0 = 0; omega
    | ⟨1, _⟩ => show win1_1.index t (1 : Fin 2) * 64 + 1 * (j 1).val = win1_2.index t (1 : Fin 2) * 64 + 1 * (j 1).val; omega
  rw [hx, hb]

variable (V : (c : Dev nD) → (b : Ref sig .tc) → Buf (Elt Ideal) ((c : Thread nD τ).loc b))

/-- What point t writes back is block t of the whole-array function of the arrays as the region finds them. -/
theorem flushed_eq (c : Dev nD) (t : Fin cfg1.N) :
    (dat1 V c).flushed 2 t
      = ((cfg1.win 2).blk t).view.read (Elt Ideal) (whole (V c main_v44) (V c main_v45)) := by
  show (cfg1.win 2).cut (grid1.coords t) ((dat1 V c).after 2 t) = _
  rw [after1_2, out_eq]
  funext j
  have hj0 : (j 0).val < 10000 := (j 0).isLt
  have hj1 : (j 1).val < 64 := (j 1).isLt
  refine ((congrArg (k1_pay1 _ _) (eq_ix2 j)).trans (biasClamp1_apply _ _ (⟨(j 0).val, hj0⟩ : Fin 10000) (⟨(j 1).val, hj1⟩ : Fin 64))).trans ?_
  exact point_eq t j hj0 hj1 (V c main_v44) (V c main_v45)

/-- An index of the output array is in point t's block iff each coordinate is in the block's range on its axis. -/
theorem mem_block (t : Fin cfg1.N) (i : S100000x64.Idx) :
    i ∈ ((cfg1.win 2).blk t).view.set
      ↔ ∀ a : Fin 2, win1_2.index t a * S10000x64.size a ≤ (i a).val ∧ (i a).val < win1_2.index t a * S10000x64.size a + S10000x64.size a := by
  show i ∈ ((View.whole main_v46).slice (win1_2.rect t)).set ↔ _
  rw [View.set_slice_whole, Rect.mem_set_unit]
  exact Iff.rfl

/-- The ten written blocks are the whole array: row i is in the block of point i / 10000. -/
theorem covered (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  let t : Fin cfg1.N := ⟨(i 0).val / 10000, by show _ < grid1.N; rw [N_1]; omega⟩
  obtain ⟨e0, e1, e2, e3, e4, e5⟩ := block_positions t
  have ht : t.val = (i 0).val / 10000 := rfl
  refine ⟨t, flush1_2 t, ?_⟩
  rw [mem_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The output array after the region: the layer's whole-array function of the two input arrays as the region
    finds them. -/
theorem final (c : Dev nD) :
    (dat1 V c).arrAt 2 cfg1.N = whole (V c main_v44) (V c main_v45) :=
  (dat1 V c).arrAt_eq_of_cover 2 _ (fun t _ => flushed_eq V c t) covered

end Cert.KernelIdeal.Clamp1

end
-- ==== Proof.Clamp2.lean ====
/-
  The second bias-and-clamp region, read off its generated frame data: the output array after the region as ONE function of the two input arrays.

  The grid has ten points; point t takes rows 10000·t … 10000·t + 9999 of the aggregated array and the one-row bias, and
  writes the same rows of the output. The ten written blocks together are the whole array, which ends holding
      out(i, j) = max (x(i,j) + b(0,j)) 0.
-/
import proofs.«131737_j26491358281754_1_alg».proof.Proof.Gen.KernelIdeal.Frame
import proofs.«131737_j26491358281754_1_alg».proof.Proof.BlockMath

set_option maxRecDepth 16384

noncomputable section

namespace Cert.KernelIdeal.Clamp2

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.BlockMath

/-- The layer as one function of whole arrays: entry (i, j) is max (x(i,j) + b(0,j)) 0. -/
def whole (X : S100000x64.Idx → EReal) (B : S1x64.Idx → EReal) : S100000x64.Idx → EReal :=
  fun i => max (X i + B (ix2 (0 : Fin 1) (⟨(i 1).val, (i 1).isLt⟩ : Fin 64))) (Ideal.ofBits .f32 0x00000000#32)

theorem zero_offsets : (![0, 0] : Fin 2 → Nat) = fun _ => 0 := funext fun a => by fin_cases a <;> rfl

/-- The one store of the body covers its whole block, so the block after the body is the body's value. -/
theorem out_eq (x0 : Vec Ideal S10000x64 .f32) (x1 : Vec Ideal S1x64 .f32) :
    out3_2 (F := Ideal) x0 x1 = k3_pay1 x1 x0 := by
  unfold out3_2
  rw [View.canon_unit_zero zero_offsets]
  simp only [View.ld_unit_zero (S := S10000x64) zero_offsets, View.ld_unit_zero (S := S1x64) zero_offsets]

/-- Where each window's block sits at point t: the row blocks move with t, the bias stays put. -/
theorem block_positions : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The index arithmetic of one block, over any two arrays: the body's value at (p, q) of block t, read from the
    blocks of the arrays, is the whole-array function at the block's (p, q)-th index. -/
theorem point_eq (t : Fin cfg3.N) (j : S10000x64.Idx) (hj0 : (j 0).val < 10000) (hj1 : (j 1).val < 64)
    (X : S100000x64.Idx → EReal) (B : S1x64.Idx → EReal) :
    max (X (((cfg3.win 0).blk t).view.emb (ix2 (⟨(j 0).val, hj0⟩ : Fin 10000) (⟨(j 1).val, hj1⟩ : Fin 64)))
        + B (((cfg3.win 1).blk t).view.emb (ix2 (0 : Fin 1) (⟨(j 1).val, hj1⟩ : Fin 64)))) (Ideal.ofBits .f32 0x00000000#32)
    = whole X B (((cfg3.win 2).blk t).view.emb j) := by
  obtain ⟨e0, e1, e2, e3, e4, e5⟩ := block_positions t
  unfold whole
  have hx : ((cfg3.win 0).blk t).view.emb (ix2 (⟨(j 0).val, hj0⟩ : Fin 10000) (⟨(j 1).val, hj1⟩ : Fin 64))
      = ((cfg3.win 2).blk t).view.emb j := by
    funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 64 + 1 * (j 1).val = win3_2.index t (1 : Fin 2) * 64 + 1 * (j 1).val; omega
  have hb : ((cfg3.win 1).blk t).view.emb (ix2 (0 : Fin 1) (⟨(j 1).val, hj1⟩ : Fin 64))
      = ix2 (0 : Fin 1) (⟨((((cfg3.win 2).blk t).view.emb j) 1).val, ((((cfg3.win 2).blk t).view.emb j) 1).isLt⟩ : Fin 64) := by
    funext a; apply Fin.ext
    match a with
    | ⟨0, _⟩ => show win3_1.index t (0 : Fin 2) * 1 + 1 * 0 = 0; omega
    | ⟨1, _⟩ => show win3_1.index t (1 : Fin 2) * 64 + 1 * (j 1).val = win3_2.index t (1 : Fin 2) * 64 + 1 * (j 1).val; omega
  rw [hx, hb]

variable (V : (c : Dev nD) → (b : Ref sig .tc) → Buf (Elt Ideal) ((c : Thread nD τ).loc b))

/-- What point t writes back is block t of the whole-array function of the arrays as the region finds them. -/
theorem flushed_eq (c : Dev nD) (t : Fin cfg3.N) :
    (dat3 V c).flushed 2 t
      = ((cfg3.win 2).blk t).view.read (Elt Ideal) (whole (V c main_v61) (V c main_v62)) := by
  show (cfg3.win 2).cut (grid3.coords t) ((dat3 V c).after 2 t) = _
  rw [after3_2, out_eq]
  funext j
  have hj0 : (j 0).val < 10000 := (j 0).isLt
  have hj1 : (j 1).val < 64 := (j 1).isLt
  refine ((congrArg (k3_pay1 _ _) (eq_ix2 j)).trans (biasClamp3_apply _ _ (⟨(j 0).val, hj0⟩ : Fin 10000) (⟨(j 1).val, hj1⟩ : Fin 64))).trans ?_
  exact point_eq t j hj0 hj1 (V c main_v61) (V c main_v62)

/-- An index of the output array is in point t's block iff each coordinate is in the block's range on its axis. -/
theorem mem_block (t : Fin cfg3.N) (i : S100000x64.Idx) :
    i ∈ ((cfg3.win 2).blk t).view.set
      ↔ ∀ a : Fin 2, win3_2.index t a * S10000x64.size a ≤ (i a).val ∧ (i a).val < win3_2.index t a * S10000x64.size a + S10000x64.size a := by
  show i ∈ ((View.whole main_v63).slice (win3_2.rect t)).set ↔ _
  rw [View.set_slice_whole, Rect.mem_set_unit]
  exact Iff.rfl

/-- The ten written blocks are the whole array: row i is in the block of point i / 10000. -/
theorem covered (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  let t : Fin cfg3.N := ⟨(i 0).val / 10000, by show _ < grid3.N; rw [N_3]; omega⟩
  obtain ⟨e0, e1, e2, e3, e4, e5⟩ := block_positions t
  have ht : t.val = (i 0).val / 10000 := rfl
  refine ⟨t, flush3_2 t, ?_⟩
  rw [mem_block]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- The output array after the region: the layer's whole-array function of the two input arrays as the region
    finds them. -/
theorem final (c : Dev nD) :
    (dat3 V c).arrAt 2 cfg3.N = whole (V c main_v61) (V c main_v62) :=
  (dat3 V c).arrAt_eq_of_cover 2 _ (fun t _ => flushed_eq V c t) covered

end Cert.KernelIdeal.Clamp2

end
-- ==== Proof.Clamp3.lean ====
/-
  The third bias-and-clamp region, read off its generated frame data: the output array after the region as ONE function of the two input arrays.

  The grid has ten points; point t takes rows 10000·t … 10000·t + 9999 of the aggregated array and the one-row bias, and
  writes the same rows of the output. The ten written blocks together are the whole array, which ends holding
      out(i, j) = max (x(i,j) + b(0,j)) 0.
-/
import proofs.«131737_j26491358281754_1_alg».proof.Proof.Gen.KernelIdeal.Frame
import proofs.«131737_j26491358281754_1_alg».proof.Proof.BlockMath

set_option maxRecDepth 16384

noncomputable section

namespace Cert.KernelIdeal.Clamp3

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.BlockMath

/-- The layer as one function of whole arrays: entry (i, j) is max (x(i,j) + b(0,j)) 0. -/
def whole (X : S100000x64.Idx → EReal) (B : S1x64.Idx → EReal) : S100000x64.Idx → EReal :=
  fun i => max (X i + B (ix2 (0 : Fin 1) (⟨(i 1).val, (i 1).isLt⟩ : Fin 64))) (Ideal.ofBits .f32 0x00000000#32)

theorem zero_offsets : (![0, 0] : Fin 2 → Nat) = fun _ => 0 := funext fun a => by fin_cases a <;> rfl

/-- The one store of the body covers its whole block, so the block after the body is the body's value. -/
theorem out_eq (x0 : Vec Ideal S10000x64 .f32) (x1 : Vec Ideal S1x64 .f32) :
    out5_2 (F := Ideal) x0 x1 = k5_pay1 x1 x0 := by
  unfold out5_2
  rw [View.canon_unit_zero zero_offsets]
  simp only [View.ld_unit_zero (S := S10000x64) zero_offsets, View.ld_unit_zero (S := S1x64) zero_offsets]

/-- Where each window's block sits at point t: the row blocks move with t, the bias stays put. -/
theorem block_positions : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The index arithmetic of one block, over any two arrays: the body's value at (p, q) of block t, read from the
    blocks of the arrays, is the whole-array function at the block's (p, q)-th index. -/
theorem point_eq (t : Fin cfg5.N) (j : S10000x64.Idx) (hj0 : (j 0).val < 10000) (hj1 : (j 1).val < 64)
    (X : S100000x64.Idx → EReal) (B : S1x64.Idx → EReal) :
    max (X (((cfg5.win 0).blk t).view.emb (ix2 (⟨(j 0).val, hj0⟩ : Fin 10000) (⟨(j 1).val, hj1⟩ : Fin 64)))
        + B (((cfg5.win 1).blk t).view.emb (ix2 (0 : Fin 1) (⟨(j 1).val, hj1⟩ : Fin 64)))) (Ideal.ofBits .f32 0x00000000#32)
    = whole X B (((cfg5.win 2).blk t).view.emb j) := by
  obtain ⟨e0, e1, e2, e3, e4, e5⟩ := block_positions t
  unfold whole
  have hx : ((cfg5.win 0).blk t).view.emb (ix2 (⟨(j 0).val, hj0⟩ : Fin 10000) (⟨(j 1).val, hj1⟩ : Fin 64))
      = ((cfg5.win 2).blk t).view.emb j := by
    funext a; apply Fin.ext
    match a with
    | ⟨0, _⟩ => show win5_0.index t (0 : Fin 2) * 10000 + 1 * (j 0).val = win5_2.index t (0 : Fin 2) * 10000 + 1 * (j 0).val; omega
    | ⟨1, _⟩ => show win5_0.index t (1 : Fin 2) * 64 + 1 * (j 1).val = win5_2.index t (1 : Fin 2) * 64 + 1 * (j 1).val; omega
  have hb : ((cfg5.win 1).blk t).view.emb (ix2 (0 : Fin 1) (⟨(j 1).val, hj1⟩ : Fin 64))
      = ix2 (0 : Fin 1) (⟨((((cfg5.win 2).blk t).view.emb j) 1).val, ((((cfg5.win 2).blk t).view.emb j) 1).isLt⟩ : Fin 64) := by
    funext a; apply Fin.ext
    match a with
    | ⟨0, _⟩ => show win5_1.index t (0 : Fin 2) * 1 + 1 * 0 = 0; omega
    | ⟨1, _⟩ => show win5_1.index t (1 : Fin 2) * 64 + 1 * (j 1).val = win5_2.index t (1 : Fin 2) * 64 + 1 * (j 1).val; omega
  rw [hx, hb]

variable (V : (c : Dev nD) → (b : Ref sig .tc) → Buf (Elt Ideal) ((c : Thread nD τ).loc b))

/-- What point t writes back is block t of the whole-array function of the arrays as the region finds them. -/
theorem flushed_eq (c : Dev nD) (t : Fin cfg5.N) :
    (dat5 V c).flushed 2 t
      = ((cfg5.win 2).blk t).view.read (Elt Ideal) (whole (V c main_v78) (V c main_v79)) := by
  show (cfg5.win 2).cut (grid5.coords t) ((dat5 V c).after 2 t) = _
  rw [after5_2, out_eq]
  funext j
  have hj0 : (j 0).val < 10000 := (j 0).isLt
  have hj1 : (j 1).val < 64 := (j 1).isLt
  refine ((congrArg (k5_pay1 _ _) (eq_ix2 j)).trans (biasClamp5_apply _ _ (⟨(j 0).val, hj0⟩ : Fin 10000) (⟨(j 1).val, hj1⟩ : Fin 64))).trans ?_
  exact point_eq t j hj0 hj1 (V c main_v78) (V c main_v79)

/-- An index of the output array is in point t's block iff each coordinate is in the block's range on its axis. -/
theorem mem_block (t : Fin cfg5.N) (i : S100000x64.Idx) :
    i ∈ ((cfg5.win 2).blk t).view.set
      ↔ ∀ a : Fin 2, win5_2.index t a * S10000x64.size a ≤ (i a).val ∧ (i a).val < win5_2.index t a * S10000x64.size a + S10000x64.size a := by
  show i ∈ ((View.whole main_v80).slice (win5_2.rect t)).set ↔ _
  rw [View.set_slice_whole, Rect.mem_set_unit]
  exact Iff.rfl

/-- The ten written blocks are the whole array: row i is in the block of point i / 10000. -/
theorem covered (i : S100000x64.Idx) :
    ∃ t : Fin cfg5.N, (cfg5.win 2).flush t = true ∧ i ∈ ((cfg5.win 2).blk t).view.set := by
  have hi0 : (i 0).val < 100000 := (i 0).isLt
  have hi1 : (i 1).val < 64 := (i 1).isLt
  let t : Fin cfg5.N := ⟨(i 0).val / 10000, by show _ < grid5.N; rw [N_5]; omega⟩
  obtain ⟨e0, e1, e2, e3, e4, e5⟩ := block_positions t
  have ht : t.val = (i 0).val / 10000 := rfl
  refine ⟨t, flush5_2 t, ?_⟩
  rw [mem_block]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 64 ≤ (i 1).val ∧ (i 1).val < win5_2.index t (1 : Fin 2) * 64 + 64; omega

/-- The output array after the region: the layer's whole-array function of the two input arrays as the region
    finds them. -/
theorem final (c : Dev nD) :
    (dat5 V c).arrAt 2 cfg5.N = whole (V c main_v78) (V c main_v79) :=
  (dat5 V c).arrAt_eq_of_cover 2 _ (fun t _ => flushed_eq V c t) covered

end Cert.KernelIdeal.Clamp3

end
-- ==== Proof.Layers.lean ====
/-
  The layers, as whole-array functions, are the reference's stages.

  Each kernel region leaves one whole-array function of its input arrays: a linear layer  Σ_k h(i,k) · w(k,j) + b(0,j),
  or a clamped bias  max (a(i,j) + b(0,j)) 0.  The reference computes the same layers by a matrix product on the host
  (the same sum over k), an addition of the bias repeated down the rows, and a maximum with zero. With the zero row as
  bias a linear layer is the bare product, because x + 0 = x on the extended reals; with the bias vector recast as a
  one-row matrix a clamped layer is the reference's add-then-maximum; and the last linear layer, with the output bias
  recast as a one-row matrix, is the reference's product-then-add.
-/
import proofs.«131737_j26491358281754_1_alg».proof.Proof.RefRead
import proofs.«131737_j26491358281754_1_alg».proof.Proof.Linear1
import proofs.«131737_j26491358281754_1_alg».proof.Proof.Linear2
import proofs.«131737_j26491358281754_1_alg».proof.Proof.Linear3
import proofs.«131737_j26491358281754_1_alg».proof.Proof.Linear4
import proofs.«131737_j26491358281754_1_alg».proof.Proof.Clamp1
import proofs.«131737_j26491358281754_1_alg».proof.Proof.Clamp2
import proofs.«131737_j26491358281754_1_alg».proof.Proof.Clamp3
import Idealize.ShloMosaic.Lib.ValueLayout

noncomputable section

namespace Cert.Layers

open Idealize.ShloMosaic Idealize.ShloMosaic.TcCoe Idealize.ShloMosaic.ValueIdx
open Cert.ReferenceIdeal Cert.ReferenceIdeal.ReadP

/-- The one-row bias the kernel hands its first three linear layers: zeros. -/
def zeroRow : Cert.KernelIdeal.S1x64.Idx → EReal :=
  broadcastInDim Cert.KernelIdeal.S1x64 ![] Cert.KernelIdeal.Facts₀.bcast_S_S1x64 (constant (F := Ideal) S_ .f32 0x00000000#32)

theorem zeroRow_apply (i : Cert.KernelIdeal.S1x64.Idx) : zeroRow i = 0 := by
  unfold zeroRow
  rw [broadcastInDim_apply _ Cert.KernelIdeal.Facts₀.bcast_S_S1x64 _ i ix0 (fun a => a.elim0)]
  exact Ideal.ofBits_zero_f32

/-- The first linear layer with the zero row as bias is the reference's product x · W1. -/
theorem linear1_eq (x0 : (⟨S100000x32, .f32⟩ : BufTy).Contents (Elt Ideal)) (x2 : (⟨S32x64, .f32⟩ : BufTy).Contents (Elt Ideal)) :
    Cert.KernelIdeal.Linear1.whole x0 x2 zeroRow = val_main_v30 (F := Ideal) x0 x2 := by
  funext i
  rw [val_main_v30_apply]
  unfold Cert.KernelIdeal.Linear1.whole
  rw [zeroRow_apply, add_zero]
  refine Finset.sum_congr rfl fun k _ => ?_
  have hl : lidx_main_v30 i k = ix2 (⟨(i 0).val, (i 0).isLt⟩ : Fin 100000) k :=
    funext fun a => by match a with | ⟨0, _⟩ => rfl | ⟨1, _⟩ => rfl
  have hr : ridx_main_v30 i k = ix2 k (⟨(i 1).val, (i 1).isLt⟩ : Fin 64) :=
    funext fun a => by match a with | ⟨0, _⟩ => rfl | ⟨1, _⟩ => rfl
  rw [hl, hr]

/-- The first clamped bias of the aggregated array, the bias vector recast as one row, is the reference's first hidden layer. -/
theorem clamp1_eq (x0 : (⟨S100000x32, .f32⟩ : BufTy).Contents (Elt Ideal)) (x1 : (⟨S2x1600000, .i32⟩ : BufTy).Contents (Elt Ideal)) (x2 : (⟨S32x64, .f32⟩ : BufTy).Contents (Elt Ideal)) (x3 : (⟨S64, .f32⟩ : BufTy).Contents (Elt Ideal)) :
    Cert.KernelIdeal.Clamp1.whole (val_main_v43 (F := Ideal) x0 x1 x2) (shapeCast Cert.KernelIdeal.S1x64 x3 Cert.KernelIdeal.Facts₀.shapeCasts_S64_S1x64)
      = val_main_v47 (F := Ideal) x0 x1 x2 x3 := by
  funext i
  rw [val_main_v47_apply, val_main_v46_apply, val_main_v45_apply, val_main_v44_apply, val_main_call1_v0_apply, val_main_call1_cst_apply]
  generalize val_main_v43 (F := Ideal) x0 x1 x2 = a
  unfold Cert.KernelIdeal.Clamp1.whole
  rw [shapeCast_a_1a_apply]
  have hidx : idx_main_v44 (idx_main_v45 i) = ix1 (⟨(i 1).val, (i 1).isLt⟩ : Fin 64) :=
    funext fun a => by match a with | ⟨0, _⟩ => rfl
  rw [hidx]
  rfl

/-- The second linear layer with the zero row as bias is the reference's product h1 · W2. -/
theorem linear2_eq (x0 : (⟨S100000x32, .f32⟩ : BufTy).Contents (Elt Ideal)) (x1 : (⟨S2x1600000, .i32⟩ : BufTy).Contents (Elt Ideal)) (x2 : (⟨S32x64, .f32⟩ : BufTy).Contents (Elt Ideal)) (x3 : (⟨S64, .f32⟩ : BufTy).Contents (Elt Ideal)) (x4 : (⟨S64x64, .f32⟩ : BufTy).Contents (Elt Ideal)) :
    Cert.KernelIdeal.Linear2.whole (val_main_v47 (F := Ideal) x0 x1 x2 x3) x4 zeroRow = val_main_v48 (F := Ideal) x0 x1 x2 x3 x4 := by
  funext i
  rw [val_main_v48_apply]
  generalize val_main_v47 (F := Ideal) x0 x1 x2 x3 = h
  unfold Cert.KernelIdeal.Linear2.whole
  rw [zeroRow_apply, add_zero]
  refine Finset.sum_congr rfl fun k _ => ?_
  have hl : lidx_main_v48 i k = ix2 (⟨(i 0).val, (i 0).isLt⟩ : Fin 100000) k :=
    funext fun a => by match a with | ⟨0, _⟩ => rfl | ⟨1, _⟩ => rfl
  have hr : ridx_main_v48 i k = ix2 k (⟨(i 1).val, (i 1).isLt⟩ : Fin 64) :=
    funext fun a => by match a with | ⟨0, _⟩ => rfl | ⟨1, _⟩ => rfl
  rw [hl, hr]

/-- The second clamped bias is the reference's second hidden layer. -/
theorem clamp2_eq (x0 : (⟨S100000x32, .f32⟩ : BufTy).Contents (Elt Ideal)) (x1 : (⟨S2x1600000, .i32⟩ : BufTy).Contents (Elt Ideal)) (x2 : (⟨S32x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) :
    Cert.KernelIdeal.Clamp2.whole (val_main_v61 (F := Ideal) x0 x1 x2 x3 x4) (shapeCast Cert.KernelIdeal.S1x64 x5 Cert.KernelIdeal.Facts₀.shapeCasts_S64_S1x64)
      = val_main_v65 (F := Ideal) x0 x1 x2 x3 x4 x5 := by
  funext i
  rw [val_main_v65_apply, val_main_v64_apply, val_main_v63_apply, val_main_v62_apply, val_main_call2_v0_apply, val_main_call2_cst_apply]
  generalize val_main_v61 (F := Ideal) x0 x1 x2 x3 x4 = a
  unfold Cert.KernelIdeal.Clamp2.whole
  rw [shapeCast_a_1a_apply]
  have hidx : idx_main_v62 (idx_main_v63 i) = ix1 (⟨(i 1).val, (i 1).isLt⟩ : Fin 64) :=
    funext fun a => by match a with | ⟨0, _⟩ => rfl
  rw [hidx]
  rfl

/-- The third linear layer with the zero row as bias is the reference's product h2 · W3. -/
theorem linear3_eq (x0 : (⟨S100000x32, .f32⟩ : BufTy).Contents (Elt Ideal)) (x1 : (⟨S2x1600000, .i32⟩ : BufTy).Contents (Elt Ideal)) (x2 : (⟨S32x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) :
    Cert.KernelIdeal.Linear3.whole (val_main_v65 (F := Ideal) x0 x1 x2 x3 x4 x5) x6 zeroRow = val_main_v66 (F := Ideal) x0 x1 x2 x3 x4 x5 x6 := by
  funext i
  rw [val_main_v66_apply]
  generalize val_main_v65 (F := Ideal) x0 x1 x2 x3 x4 x5 = h
  unfold Cert.KernelIdeal.Linear3.whole
  rw [zeroRow_apply, add_zero]
  refine Finset.sum_congr rfl fun k _ => ?_
  have hl : lidx_main_v66 i k = ix2 (⟨(i 0).val, (i 0).isLt⟩ : Fin 100000) k :=
    funext fun a => by match a with | ⟨0, _⟩ => rfl | ⟨1, _⟩ => rfl
  have hr : ridx_main_v66 i k = ix2 k (⟨(i 1).val, (i 1).isLt⟩ : Fin 64) :=
    funext fun a => by match a with | ⟨0, _⟩ => rfl | ⟨1, _⟩ => rfl
  rw [hl, hr]

/-- The third clamped bias is the reference's third hidden layer. -/
theorem clamp3_eq (x0 : (⟨S100000x32, .f32⟩ : BufTy).Contents (Elt Ideal)) (x1 : (⟨S2x1600000, .i32⟩ : BufTy).Contents (Elt Ideal)) (x2 : (⟨S32x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) :
    Cert.KernelIdeal.Clamp3.whole (val_main_v79 (F := Ideal) x0 x1 x2 x3 x4 x5 x6) (shapeCast Cert.KernelIdeal.S1x64 x7 Cert.KernelIdeal.Facts₀.shapeCasts_S64_S1x64)
      = val_main_v83 (F := Ideal) x0 x1 x2 x3 x4 x5 x6 x7 := by
  funext i
  rw [val_main_v83_apply, val_main_v82_apply, val_main_v81_apply, val_main_v80_apply, val_main_call3_v0_apply, val_main_call3_cst_apply]
  generalize val_main_v79 (F := Ideal) x0 x1 x2 x3 x4 x5 x6 = a
  unfold Cert.KernelIdeal.Clamp3.whole
  rw [shapeCast_a_1a_apply]
  have hidx : idx_main_v80 (idx_main_v81 i) = ix1 (⟨(i 1).val, (i 1).isLt⟩ : Fin 64) :=
    funext fun a => by match a with | ⟨0, _⟩ => rfl
  rw [hidx]
  rfl

/-- The output layer, its bias vector recast as one row, is the reference's h3 · Wo + bo. -/
theorem linear4_eq (x0 : (⟨S100000x32, .f32⟩ : BufTy).Contents (Elt Ideal)) (x1 : (⟨S2x1600000, .i32⟩ : BufTy).Contents (Elt Ideal)) (x2 : (⟨S32x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x2, .f32⟩ : BufTy).Contents (Elt Ideal)) (x9 : (⟨S2, .f32⟩ : BufTy).Contents (Elt Ideal)) :
    Cert.KernelIdeal.Linear4.whole (val_main_v83 (F := Ideal) x0 x1 x2 x3 x4 x5 x6 x7) x8 (shapeCast Cert.KernelIdeal.S1x2 x9 Cert.KernelIdeal.Facts₀.shapeCasts_S2_S1x2)
      = val_main_v87 (F := Ideal) x0 x1 x2 x3 x4 x5 x6 x7 x8 x9 := by
  funext i
  rw [val_main_v87_apply, val_main_v84_apply, val_main_v86_apply, val_main_v85_apply]
  generalize val_main_v83 (F := Ideal) x0 x1 x2 x3 x4 x5 x6 x7 = h
  unfold Cert.KernelIdeal.Linear4.whole
  rw [shapeCast_a_1a_apply]
  have hidx : idx_main_v85 (idx_main_v86 i) = ix1 (⟨(i 1).val, (i 1).isLt⟩ : Fin 2) :=
    funext fun a => by match a with | ⟨0, _⟩ => rfl
  rw [hidx]
  refine congrArg (· + _) (Finset.sum_congr rfl fun k _ => ?_)
  have hl : lidx_main_v84 i k = ix2 (⟨(i 0).val, (i 0).isLt⟩ : Fin 100000) k :=
    funext fun a => by match a with | ⟨0, _⟩ => rfl | ⟨1, _⟩ => rfl
  have hr : ridx_main_v84 i k = ix2 k (⟨(i 1).val, (i 1).isLt⟩ : Fin 2) :=
    funext fun a => by match a with | ⟨0, _⟩ => rfl | ⟨1, _⟩ => rfl
  rw [hl, hr]

end Cert.Layers

end
-- ==== Proof.HostStages.lean ====
/-
  What the host stretches between the regions compute, over any contents of the buffers.

  After each linear region the host aggregates: it gathers the rows of the product along the source nodes, scales them
  by the edge weights and adds them up at the destination nodes. These are the reference's own operations on the same
  operands, so each aggregation is the reference's stage as written — nothing is opened. Beside an aggregation the
  host recasts a bias vector as a one-row matrix; before the second and third linear regions it makes a row of zeros.
-/
import proofs.«131737_j26491358281754_1_alg».proof.Proof.Carry
import proofs.«131737_j26491358281754_1_alg».proof.Proof.Layers

set_option maxRecDepth 16384

noncomputable section

namespace Cert.KernelIdeal.Fold

open Idealize.ShloMosaic Idealize.ShloMosaic.TcCoe Idealize.SL.Sem Idealize.ShloMosaic.StableHlo
open Idealize.ShloMosaic.Pipeline (Dat)
open Cert.KernelIdeal Cert.KernelIdeal.Gen

set_option maxHeartbeats 4000000 in
/-- The aggregation after region 0: the host gathers the rows of the layer's product along the source nodes, scales
    them by the edge weights and adds them up at the destination nodes — the reference's own operations on the same
    operands, so the two terms are one. -/
theorem aggregate0 {W : Valuation τ sig (Elt Ideal)} {x1 x3 x4 x5 x6 x7 x8 x9} (h : Carried W x1 x3 x4 x5 x6 x7 x8 x9) (x0 : (⟨S100000x32, .f32⟩ : BufTy).Contents (Elt Ideal)) (x2 : (⟨S32x64, .f32⟩ : BufTy).Contents (Elt Ideal))
    (hxw : W (Proc.devRef .tc main_v31) = Cert.ReferenceIdeal.ReadP.val_main_v30 (F := Ideal) x0 x2) :
    StableHlo.after hostOps1 W (Proc.devRef .tc main_v44) = Cert.ReferenceIdeal.ReadP.val_main_v43 (F := Ideal) x0 x1 x2 := by
  after_results_simp
  rw [hxw, h.src, h.dst, h.norm]
  rfl

set_option maxHeartbeats 4000000 in
/-- The aggregation after region 2: the host gathers the rows of the layer's product along the source nodes, scales
    them by the edge weights and adds them up at the destination nodes — the reference's own operations on the same
    operands, so the two terms are one. -/
theorem aggregate2 {W : Valuation τ sig (Elt Ideal)} {x1 x3 x4 x5 x6 x7 x8 x9} (h : Carried W x1 x3 x4 x5 x6 x7 x8 x9) (x0 : (⟨S100000x32, .f32⟩ : BufTy).Contents (Elt Ideal)) (x2 : (⟨S32x64, .f32⟩ : BufTy).Contents (Elt Ideal))
    (hxw : W (Proc.devRef .tc main_v48) = Cert.ReferenceIdeal.ReadP.val_main_v48 (F := Ideal) x0 x1 x2 x3 x4) :
    StableHlo.after hostOps3 W (Proc.devRef .tc main_v61) = Cert.ReferenceIdeal.ReadP.val_main_v61 (F := Ideal) x0 x1 x2 x3 x4 := by
  after_results_simp
  rw [hxw, h.src, h.dst, h.norm]
  rfl

set_option maxHeartbeats 4000000 in
/-- The aggregation after region 4: the host gathers the rows of the layer's product along the source nodes, scales
    them by the edge weights and adds them up at the destination nodes — the reference's own operations on the same
    operands, so the two terms are one. -/
theorem aggregate4 {W : Valuation τ sig (Elt Ideal)} {x1 x3 x4 x5 x6 x7 x8 x9} (h : Carried W x1 x3 x4 x5 x6 x7 x8 x9) (x0 : (⟨S100000x32, .f32⟩ : BufTy).Contents (Elt Ideal)) (x2 : (⟨S32x64, .f32⟩ : BufTy).Contents (Elt Ideal))
    (hxw : W (Proc.devRef .tc main_v65) = Cert.ReferenceIdeal.ReadP.val_main_v66 (F := Ideal) x0 x1 x2 x3 x4 x5 x6) :
    StableHlo.after hostOps5 W (Proc.devRef .tc main_v78) = Cert.ReferenceIdeal.ReadP.val_main_v79 (F := Ideal) x0 x1 x2 x3 x4 x5 x6 := by
  after_results_simp
  rw [hxw, h.src, h.dst, h.norm]
  rfl

/-- A bias vector recast as a one-row matrix, beside each aggregation. -/
theorem biasRow1 (W : Valuation τ sig (Elt Ideal)) :
    StableHlo.after hostOps1 W (Proc.devRef .tc main_v45) = shapeCast S1x64 (W (Proc.devRef .tc main_arg3)) Gen.shapeCasts_S64_S1x64 := by
  after_results_simp <;> rfl
theorem biasRow2 (W : Valuation τ sig (Elt Ideal)) :
    StableHlo.after hostOps3 W (Proc.devRef .tc main_v62) = shapeCast S1x64 (W (Proc.devRef .tc main_arg5)) Gen.shapeCasts_S64_S1x64 := by
  after_results_simp <;> rfl
theorem biasRow3 (W : Valuation τ sig (Elt Ideal)) :
    StableHlo.after hostOps5 W (Proc.devRef .tc main_v79) = shapeCast S1x64 (W (Proc.devRef .tc main_arg7)) Gen.shapeCasts_S64_S1x64 := by
  after_results_simp <;> rfl
theorem biasRowOut (W : Valuation τ sig (Elt Ideal)) :
    StableHlo.after hostOps6 W (Proc.devRef .tc main_v81) = shapeCast S1x2 (W (Proc.devRef .tc main_arg9)) Gen.shapeCasts_S2_S1x2 := by
  after_results_simp <;> rfl

/-- The zero row handed to the second and third linear regions as their bias. -/
theorem zeroRow2 (W : Valuation τ sig (Elt Ideal)) :
    StableHlo.after hostOps2 W (Proc.devRef .tc main_v47) = Cert.Layers.zeroRow := by
  after_results_simp <;> rfl
theorem zeroRow3 (W : Valuation τ sig (Elt Ideal)) :
    StableHlo.after hostOps4 W (Proc.devRef .tc main_v64) = Cert.Layers.zeroRow := by
  after_results_simp <;> rfl

/-- The short stretches before the later linear regions leave the previous layer's array alone. -/
theorem keep_h1 (W : Valuation τ sig (Elt Ideal)) :
    StableHlo.after hostOps2 W (Proc.devRef .tc main_v46) = W (Proc.devRef .tc main_v46) := by not_written
theorem keep_h2 (W : Valuation τ sig (Elt Ideal)) :
    StableHlo.after hostOps4 W (Proc.devRef .tc main_v63) = W (Proc.devRef .tc main_v63) := by not_written
theorem keep_h3 (W : Valuation τ sig (Elt Ideal)) :
    StableHlo.after hostOps6 W (Proc.devRef .tc main_v80) = W (Proc.devRef .tc main_v80) := by not_written

end Cert.KernelIdeal.Fold

end
-- ==== Proof.Start.lean ====
/-
  Before the first region: the three opening host stretches.

  From the edge-index argument the host builds the two edge lists (sources and destinations, a self loop appended for
  every node), counts the degree of every node by a scatter-add of ones, takes the inverse square roots where the degree
  is positive, and multiplies the two gathered factors into the weight of every edge. These are the reference's own
  operations: stretch by stretch, over any contents of the buffers, each result is the reference's stage as written.
-/
import proofs.«131737_j26491358281754_1_alg».proof.Proof.Carry
import proofs.«131737_j26491358281754_1_alg».proof.Proof.Layers

set_option maxRecDepth 16384

noncomputable section

namespace Cert.KernelIdeal.Fold

open Idealize.ShloMosaic Idealize.ShloMosaic.TcCoe Idealize.SL.Sem Idealize.ShloMosaic.StableHlo
open Idealize.ShloMosaic.Pipeline (Dat)
open Cert.KernelIdeal Cert.KernelIdeal.Gen

section Stretches
variable (W : Valuation τ sig (Elt Ideal))

/-! ### The first stretch: the edge lists, the degrees, their comparison with zero and their inverse square roots -/

theorem sources_first : StableHlo.after hostOps0 W (Proc.devRef .tc main_v3) = Cert.ReferenceIdeal.ReadP.val_main_v3 (F := Ideal) (W (Proc.devRef .tc main_arg1)) := by
  after_results_simp <;> rfl
theorem destinations_first : StableHlo.after hostOps0 W (Proc.devRef .tc main_v6) = Cert.ReferenceIdeal.ReadP.val_main_v6 (F := Ideal) (W (Proc.devRef .tc main_arg1)) := by
  after_results_simp <;> rfl
theorem positive_first : StableHlo.after hostOps0 W (Proc.devRef .tc main_v12) = Cert.ReferenceIdeal.ReadP.val_main_v12 (F := Ideal) (W (Proc.devRef .tc main_arg1)) := by
  after_results_simp <;> rfl
theorem rsqrt_first : StableHlo.after hostOps0 W (Proc.devRef .tc main_v13) = Cert.ReferenceIdeal.ReadP.val_main_v13 (F := Ideal) (W (Proc.devRef .tc main_arg1)) := by
  after_results_simp <;> rfl
theorem zero_first : StableHlo.after hostOps0 W (Proc.devRef .tc main_cst_2) = Cert.ReferenceIdeal.ReadP.val_main_cst_2 (F := Ideal) := by
  after_results_simp <;> rfl

/-! ### The second stretch: the inverse square root where the degree is positive, zero elsewhere -/

/-- The three operations of the selection (a conversion, a broadcast of the zero, the select), over any mask `p` and any
    values `a`: `a` where `p` holds, zero elsewhere. Each intermediate of the selection is stored and read back unchanged. -/
theorem select_or_zero (p : (⟨S100000, .i1⟩ : BufTy).Contents (Elt Ideal)) (a : (⟨S100000, .f32⟩ : BufTy).Contents (Elt Ideal)) :
    ((TRef.of main_v14 : TRef sig ⟨S100000, .f32⟩).toBuf
      (select ((TRef.of main_v12 : TRef sig ⟨S100000, .i1⟩).ofBuf p) ((TRef.of main_v13 : TRef sig ⟨S100000, .f32⟩).ofBuf a)
        ((TRef.of main_call0_v1 : TRef sig ⟨S100000, .f32⟩).ofBuf ((TRef.of main_call0_v1 : TRef sig ⟨S100000, .f32⟩).toBuf
          (broadcastInDim S100000 ![] bcast_S_S100000
            ((TRef.of main_call0_v0 : TRef sig ⟨S_, .f32⟩).ofBuf ((TRef.of main_call0_v0 : TRef sig ⟨S_, .f32⟩).toBuf
              (id ((TRef.of main_cst_2 : TRef sig ⟨S_, .f32⟩).ofBuf (Cert.ReferenceIdeal.ReadP.val_main_cst_2 (F := Ideal)))))))))) : (⟨S100000, .f32⟩ : BufTy).Contents (Elt Ideal))
    = select p a (broadcastInDim Cert.ReferenceIdeal.S100000 ![] Cert.ReferenceIdeal.Gen.bcast_S_S100000 (id (Cert.ReferenceIdeal.ReadP.val_main_cst_2 (F := Ideal)))) := rfl

theorem factor_second (x1 : (⟨S2x1600000, .i32⟩ : BufTy).Contents (Elt Ideal))
    (h12 : W (Proc.devRef .tc main_v12) = Cert.ReferenceIdeal.ReadP.val_main_v12 (F := Ideal) x1) (h13 : W (Proc.devRef .tc main_v13) = Cert.ReferenceIdeal.ReadP.val_main_v13 (F := Ideal) x1)
    (hz : W (Proc.devRef .tc main_cst_2) = Cert.ReferenceIdeal.ReadP.val_main_cst_2 (F := Ideal)) :
    StableHlo.after hostOps0_1 W (Proc.devRef .tc main_v14) = Cert.ReferenceIdeal.ReadP.val_main_v14 (F := Ideal) x1 := by
  after_results_simp
  rw [h12, h13, hz]
  exact select_or_zero _ _

/-! ### The third stretch: the weight of every edge, and the first zero row -/

set_option maxHeartbeats 4000000 in
theorem weights_third (x1 : (⟨S2x1600000, .i32⟩ : BufTy).Contents (Elt Ideal))
    (h14 : W (Proc.devRef .tc main_v14) = Cert.ReferenceIdeal.ReadP.val_main_v14 (F := Ideal) x1) (h3 : W (Proc.devRef .tc main_v3) = Cert.ReferenceIdeal.ReadP.val_main_v3 (F := Ideal) x1)
    (h6 : W (Proc.devRef .tc main_v6) = Cert.ReferenceIdeal.ReadP.val_main_v6 (F := Ideal) x1) :
    StableHlo.after hostOps0_2 W (Proc.devRef .tc main_v29) = Cert.ReferenceIdeal.ReadP.val_main_v29 (F := Ideal) x1 := by
  after_results_simp
  rw [h14, h3, h6]
  rfl
theorem zeroRow_third : StableHlo.after hostOps0_2 W (Proc.devRef .tc main_v30) = Cert.Layers.zeroRow := by
  after_results_simp <;> rfl

/-- No opening stretch writes an argument. -/
theorem arg0_opening : StableHlo.after hostOps0_2 (StableHlo.after hostOps0_1 (StableHlo.after hostOps0 W)) (Proc.devRef .tc main_arg0) = W (Proc.devRef .tc main_arg0) :=
  (show StableHlo.after hostOps0_2 _ (Proc.devRef .tc main_arg0) = _ by not_written).trans
    ((show StableHlo.after hostOps0_1 _ (Proc.devRef .tc main_arg0) = _ by not_written).trans
      (show StableHlo.after hostOps0 W (Proc.devRef .tc main_arg0) = _ by not_written))
theorem arg2_opening : StableHlo.after hostOps0_2 (StableHlo.after hostOps0_1 (StableHlo.after hostOps0 W)) (Proc.devRef .tc main_arg2) = W (Proc.devRef .tc main_arg2) :=
  (show StableHlo.after hostOps0_2 _ (Proc.devRef .tc main_arg2) = _ by not_written).trans
    ((show StableHlo.after hostOps0_1 _ (Proc.devRef .tc main_arg2) = _ by not_written).trans
      (show StableHlo.after hostOps0 W (Proc.devRef .tc main_arg2) = _ by not_written))
theorem arg3_opening : StableHlo.after hostOps0_2 (StableHlo.after hostOps0_1 (StableHlo.after hostOps0 W)) (Proc.devRef .tc main_arg3) = W (Proc.devRef .tc main_arg3) :=
  (show StableHlo.after hostOps0_2 _ (Proc.devRef .tc main_arg3) = _ by not_written).trans
    ((show StableHlo.after hostOps0_1 _ (Proc.devRef .tc main_arg3) = _ by not_written).trans
      (show StableHlo.after hostOps0 W (Proc.devRef .tc main_arg3) = _ by not_written))
theorem arg4_opening : StableHlo.after hostOps0_2 (StableHlo.after hostOps0_1 (StableHlo.after hostOps0 W)) (Proc.devRef .tc main_arg4) = W (Proc.devRef .tc main_arg4) :=
  (show StableHlo.after hostOps0_2 _ (Proc.devRef .tc main_arg4) = _ by not_written).trans
    ((show StableHlo.after hostOps0_1 _ (Proc.devRef .tc main_arg4) = _ by not_written).trans
      (show StableHlo.after hostOps0 W (Proc.devRef .tc main_arg4) = _ by not_written))
theorem arg5_opening : StableHlo.after hostOps0_2 (StableHlo.after hostOps0_1 (StableHlo.after hostOps0 W)) (Proc.devRef .tc main_arg5) = W (Proc.devRef .tc main_arg5) :=
  (show StableHlo.after hostOps0_2 _ (Proc.devRef .tc main_arg5) = _ by not_written).trans
    ((show StableHlo.after hostOps0_1 _ (Proc.devRef .tc main_arg5) = _ by not_written).trans
      (show StableHlo.after hostOps0 W (Proc.devRef .tc main_arg5) = _ by not_written))
theorem arg6_opening : StableHlo.after hostOps0_2 (StableHlo.after hostOps0_1 (StableHlo.after hostOps0 W)) (Proc.devRef .tc main_arg6) = W (Proc.devRef .tc main_arg6) :=
  (show StableHlo.after hostOps0_2 _ (Proc.devRef .tc main_arg6) = _ by not_written).trans
    ((show StableHlo.after hostOps0_1 _ (Proc.devRef .tc main_arg6) = _ by not_written).trans
      (show StableHlo.after hostOps0 W (Proc.devRef .tc main_arg6) = _ by not_written))
theorem arg7_opening : StableHlo.after hostOps0_2 (StableHlo.after hostOps0_1 (StableHlo.after hostOps0 W)) (Proc.devRef .tc main_arg7) = W (Proc.devRef .tc main_arg7) :=
  (show StableHlo.after hostOps0_2 _ (Proc.devRef .tc main_arg7) = _ by not_written).trans
    ((show StableHlo.after hostOps0_1 _ (Proc.devRef .tc main_arg7) = _ by not_written).trans
      (show StableHlo.after hostOps0 W (Proc.devRef .tc main_arg7) = _ by not_written))
theorem arg8_opening : StableHlo.after hostOps0_2 (StableHlo.after hostOps0_1 (StableHlo.after hostOps0 W)) (Proc.devRef .tc main_arg8) = W (Proc.devRef .tc main_arg8) :=
  (show StableHlo.after hostOps0_2 _ (Proc.devRef .tc main_arg8) = _ by not_written).trans
    ((show StableHlo.after hostOps0_1 _ (Proc.devRef .tc main_arg8) = _ by not_written).trans
      (show StableHlo.after hostOps0 W (Proc.devRef .tc main_arg8) = _ by not_written))
theorem arg9_opening : StableHlo.after hostOps0_2 (StableHlo.after hostOps0_1 (StableHlo.after hostOps0 W)) (Proc.devRef .tc main_arg9) = W (Proc.devRef .tc main_arg9) :=
  (show StableHlo.after hostOps0_2 _ (Proc.devRef .tc main_arg9) = _ by not_written).trans
    ((show StableHlo.after hostOps0_1 _ (Proc.devRef .tc main_arg9) = _ by not_written).trans
      (show StableHlo.after hostOps0 W (Proc.devRef .tc main_arg9) = _ by not_written))

/-- The weight of every edge after the three opening stretches. -/
theorem weights_opening : StableHlo.after hostOps0_2 (StableHlo.after hostOps0_1 (StableHlo.after hostOps0 W)) (Proc.devRef .tc main_v29)
    = Cert.ReferenceIdeal.ReadP.val_main_v29 (F := Ideal) (W (Proc.devRef .tc main_arg1)) :=
  weights_third _ _
    (factor_second _ _ (positive_first W) (rsqrt_first W) (zero_first W))
    ((show StableHlo.after hostOps0_1 _ (Proc.devRef .tc main_v3) = _ by not_written).trans (sources_first W))
    ((show StableHlo.after hostOps0_1 _ (Proc.devRef .tc main_v6) = _ by not_written).trans (destinations_first W))
theorem sources_opening : StableHlo.after hostOps0_2 (StableHlo.after hostOps0_1 (StableHlo.after hostOps0 W)) (Proc.devRef .tc main_v3)
    = Cert.ReferenceIdeal.ReadP.val_main_v3 (F := Ideal) (W (Proc.devRef .tc main_arg1)) :=
  (show StableHlo.after hostOps0_2 _ (Proc.devRef .tc main_v3) = _ by not_written).trans
    ((show StableHlo.after hostOps0_1 _ (Proc.devRef .tc main_v3) = _ by not_written).trans (sources_first W))
theorem destinations_opening : StableHlo.after hostOps0_2 (StableHlo.after hostOps0_1 (StableHlo.after hostOps0 W)) (Proc.devRef .tc main_v6)
    = Cert.ReferenceIdeal.ReadP.val_main_v6 (F := Ideal) (W (Proc.devRef .tc main_arg1)) :=
  (show StableHlo.after hostOps0_2 _ (Proc.devRef .tc main_v6) = _ by not_written).trans
    ((show StableHlo.after hostOps0_1 _ (Proc.devRef .tc main_v6) = _ by not_written).trans (destinations_first W))

end Stretches

variable (m : (ℓ : Loc nD τ sig) → Buf (Elt Ideal) ℓ) (ρ : Dev nD → PrngReg) (c : Dev nD)

set_option quotPrecheck false
local notation "X0" => m ((c : Thread nD τ).loc main_arg0)
local notation "X1" => m ((c : Thread nD τ).loc main_arg1)
local notation "X2" => m ((c : Thread nD τ).loc main_arg2)
local notation "X3" => m ((c : Thread nD τ).loc main_arg3)
local notation "X4" => m ((c : Thread nD τ).loc main_arg4)
local notation "X5" => m ((c : Thread nD τ).loc main_arg5)
local notation "X6" => m ((c : Thread nD τ).loc main_arg6)
local notation "X7" => m ((c : Thread nD τ).loc main_arg7)
local notation "X8" => m ((c : Thread nD τ).loc main_arg8)
local notation "X9" => m ((c : Thread nD τ).loc main_arg9)

/-- At the first region's entry: the edge lists and the edge weights are the reference's stages of the edge-index
    argument, and the arguments are as launched. -/
theorem start_carried : Carried (W3 m ρ c) X1 X3 X4 X5 X6 X7 X8 X9 where
  src := sources_opening (W0 m ρ c)
  dst := destinations_opening (W0 m ρ c)
  norm := weights_opening (W0 m ρ c)
  b1 := arg3_opening (W0 m ρ c)
  w2 := arg4_opening (W0 m ρ c)
  b2 := arg5_opening (W0 m ρ c)
  w3 := arg6_opening (W0 m ρ c)
  b3 := arg7_opening (W0 m ρ c)
  wo := arg8_opening (W0 m ρ c)
  bo := arg9_opening (W0 m ρ c)
theorem start_x : W3 m ρ c (Proc.devRef .tc main_arg0) = X0 := arg0_opening (W0 m ρ c)
theorem start_w1 : W3 m ρ c (Proc.devRef .tc main_arg2) = X2 := arg2_opening (W0 m ρ c)
theorem start_zeroRow : W3 m ρ c (Proc.devRef .tc main_v30) = Cert.Layers.zeroRow := zeroRow_third (W2 m ρ c)

end Cert.KernelIdeal.Fold

end
-- ==== Proof.Fold.lean ====
/-
  The buffers that matter, boundary by boundary.

  The generated frame runs @main as sixteen segments and names the TensorCore's buffer contents at every boundary
  (W0 at the launch, … , W16 at the return): a host stretch applies its operations to what it finds, a region replaces
  its output array by what its ten blocks leave and touches nothing else. Walking that fold forwards, every buffer a later
  segment reads is named here as a STAGE OF THE REFERENCE applied to the launch arguments:

    the product x·W1, its aggregation over the edges, the clamped bias h1, the product h1·W2, … , the result h3·Wo + bo.

  The host operations between the regions are the reference's own, on equal operands, and are never opened. Only the
  seven regions carry mathematics: a linear region is the bare product because its bias is a row of zeros and
  x + 0 = x, a clamp region is the reference's add-then-maximum, and the last region is the product plus the output bias.
-/
import proofs.«131737_j26491358281754_1_alg».proof.Proof.Carry
import proofs.«131737_j26491358281754_1_alg».proof.Proof.HostStages
import proofs.«131737_j26491358281754_1_alg».proof.Proof.Start
import proofs.«131737_j26491358281754_1_alg».proof.Proof.Layers

set_option maxRecDepth 16384

noncomputable section

namespace Cert.KernelIdeal.Fold

open Idealize.ShloMosaic Idealize.ShloMosaic.TcCoe Idealize.SL.Sem Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg) (c : Dev nD)

set_option quotPrecheck false
local notation "X0" => m ((c : Thread nD τ).loc main_arg0)
local notation "X1" => m ((c : Thread nD τ).loc main_arg1)
local notation "X2" => m ((c : Thread nD τ).loc main_arg2)
local notation "X3" => m ((c : Thread nD τ).loc main_arg3)
local notation "X4" => m ((c : Thread nD τ).loc main_arg4)
local notation "X5" => m ((c : Thread nD τ).loc main_arg5)
local notation "X6" => m ((c : Thread nD τ).loc main_arg6)
local notation "X7" => m ((c : Thread nD τ).loc main_arg7)
local notation "X8" => m ((c : Thread nD τ).loc main_arg8)
local notation "X9" => m ((c : Thread nD τ).loc main_arg9)
/-- After region 0: the product x · W1. -/
theorem product1 : W4 m ρ c (Proc.devRef .tc main_v31) = Cert.ReferenceIdeal.ReadP.val_main_v30 (F := Ideal) X0 X2 :=
  (W4_arr m ρ c 3).trans ((Linear1.final (V3 m ρ) c).trans
    ((congr3 Linear1.whole (start_x m ρ c) (start_w1 m ρ c) (start_zeroRow m ρ c)).trans (Cert.Layers.linear1_eq X0 X2)))
theorem carried4 : Carried (W4 m ρ c) X1 X3 X4 X5 X6 X7 X8 X9 := carried_region0 m ρ c (start_carried m ρ c)

/-- After the first aggregation. -/
theorem aggregated1 : W5 m ρ c (Proc.devRef .tc main_v44) = Cert.ReferenceIdeal.ReadP.val_main_v43 (F := Ideal) X0 X1 X2 :=
  aggregate0 (carried4 m ρ c) X0 X2 (product1 m ρ c)
theorem bias1 : W5 m ρ c (Proc.devRef .tc main_v45) = shapeCast S1x64 X3 Gen.shapeCasts_S64_S1x64 :=
  (biasRow1 (W4 m ρ c)).trans (congrArg (fun b => shapeCast S1x64 b Gen.shapeCasts_S64_S1x64) (carried4 m ρ c).b1)
theorem carried5 : Carried (W5 m ρ c) X1 X3 X4 X5 X6 X7 X8 X9 := (carried4 m ρ c).host1

/-- After region 1: the first hidden layer. -/
theorem hidden1 : W6 m ρ c (Proc.devRef .tc main_v46) = Cert.ReferenceIdeal.ReadP.val_main_v47 (F := Ideal) X0 X1 X2 X3 :=
  (W6_arr m ρ c 2).trans ((Clamp1.final (V5 m ρ) c).trans
    ((congr2 Clamp1.whole (aggregated1 m ρ c) (bias1 m ρ c)).trans (Cert.Layers.clamp1_eq X0 X1 X2 X3)))
theorem carried6 : Carried (W6 m ρ c) X1 X3 X4 X5 X6 X7 X8 X9 := carried_region1 m ρ c (carried5 m ρ c)
theorem carried7 : Carried (W7 m ρ c) X1 X3 X4 X5 X6 X7 X8 X9 := (carried6 m ρ c).host2

/-- After region 2: the product h1 · W2. -/
theorem product2 : W8 m ρ c (Proc.devRef .tc main_v48) = Cert.ReferenceIdeal.ReadP.val_main_v48 (F := Ideal) X0 X1 X2 X3 X4 :=
  (W8_arr m ρ c 3).trans ((Linear2.final (V7 m ρ) c).trans
    ((congr3 Linear2.whole ((keep_h1 (W6 m ρ c)).trans (hidden1 m ρ c)) (carried7 m ρ c).w2 (zeroRow2 (W6 m ρ c))).trans
      (Cert.Layers.linear2_eq X0 X1 X2 X3 X4)))
theorem carried8 : Carried (W8 m ρ c) X1 X3 X4 X5 X6 X7 X8 X9 := carried_region2 m ρ c (carried7 m ρ c)

/-- After the second aggregation. -/
theorem aggregated2 : W9 m ρ c (Proc.devRef .tc main_v61) = Cert.ReferenceIdeal.ReadP.val_main_v61 (F := Ideal) X0 X1 X2 X3 X4 :=
  aggregate2 (carried8 m ρ c) X0 X2 (product2 m ρ c)
theorem bias2 : W9 m ρ c (Proc.devRef .tc main_v62) = shapeCast S1x64 X5 Gen.shapeCasts_S64_S1x64 :=
  (biasRow2 (W8 m ρ c)).trans (congrArg (fun b => shapeCast S1x64 b Gen.shapeCasts_S64_S1x64) (carried8 m ρ c).b2)
theorem carried9 : Carried (W9 m ρ c) X1 X3 X4 X5 X6 X7 X8 X9 := (carried8 m ρ c).host3

/-- After region 3: the second hidden layer. -/
theorem hidden2 : W10 m ρ c (Proc.devRef .tc main_v63) = Cert.ReferenceIdeal.ReadP.val_main_v65 (F := Ideal) X0 X1 X2 X3 X4 X5 :=
  (W10_arr m ρ c 2).trans ((Clamp2.final (V9 m ρ) c).trans
    ((congr2 Clamp2.whole (aggregated2 m ρ c) (bias2 m ρ c)).trans (Cert.Layers.clamp2_eq X0 X1 X2 X3 X4 X5)))
theorem carried10 : Carried (W10 m ρ c) X1 X3 X4 X5 X6 X7 X8 X9 := carried_region3 m ρ c (carried9 m ρ c)
theorem carried11 : Carried (W11 m ρ c) X1 X3 X4 X5 X6 X7 X8 X9 := (carried10 m ρ c).host4

/-- After region 4: the product h2 · W3. -/
theorem product3 : W12 m ρ c (Proc.devRef .tc main_v65) = Cert.ReferenceIdeal.ReadP.val_main_v66 (F := Ideal) X0 X1 X2 X3 X4 X5 X6 :=
  (W12_arr m ρ c 3).trans ((Linear3.final (V11 m ρ) c).trans
    ((congr3 Linear3.whole ((keep_h2 (W10 m ρ c)).trans (hidden2 m ρ c)) (carried11 m ρ c).w3 (zeroRow3 (W10 m ρ c))).trans
      (Cert.Layers.linear3_eq X0 X1 X2 X3 X4 X5 X6)))
theorem carried12 : Carried (W12 m ρ c) X1 X3 X4 X5 X6 X7 X8 X9 := carried_region4 m ρ c (carried11 m ρ c)

/-- After the third aggregation. -/
theorem aggregated3 : W13 m ρ c (Proc.devRef .tc main_v78) = Cert.ReferenceIdeal.ReadP.val_main_v79 (F := Ideal) X0 X1 X2 X3 X4 X5 X6 :=
  aggregate4 (carried12 m ρ c) X0 X2 (product3 m ρ c)
theorem bias3 : W13 m ρ c (Proc.devRef .tc main_v79) = shapeCast S1x64 X7 Gen.shapeCasts_S64_S1x64 :=
  (biasRow3 (W12 m ρ c)).trans (congrArg (fun b => shapeCast S1x64 b Gen.shapeCasts_S64_S1x64) (carried12 m ρ c).b3)
theorem carried13 : Carried (W13 m ρ c) X1 X3 X4 X5 X6 X7 X8 X9 := (carried12 m ρ c).host5

/-- After region 5: the third hidden layer. -/
theorem hidden3 : W14 m ρ c (Proc.devRef .tc main_v80) = Cert.ReferenceIdeal.ReadP.val_main_v83 (F := Ideal) X0 X1 X2 X3 X4 X5 X6 X7 :=
  (W14_arr m ρ c 2).trans ((Clamp3.final (V13 m ρ) c).trans
    ((congr2 Clamp3.whole (aggregated3 m ρ c) (bias3 m ρ c)).trans (Cert.Layers.clamp3_eq X0 X1 X2 X3 X4 X5 X6 X7)))
theorem carried14 : Carried (W14 m ρ c) X1 X3 X4 X5 X6 X7 X8 X9 := carried_region5 m ρ c (carried13 m ρ c)
theorem carried15 : Carried (W15 m ρ c) X1 X3 X4 X5 X6 X7 X8 X9 := (carried14 m ρ c).host6
theorem biasOut : W15 m ρ c (Proc.devRef .tc main_v81) = shapeCast S1x2 X9 Gen.shapeCasts_S2_S1x2 :=
  (biasRowOut (W14 m ρ c)).trans (congrArg (fun b => shapeCast S1x2 b Gen.shapeCasts_S2_S1x2) (carried14 m ρ c).bo)

/-- After region 6, at the return: the kernel's result is the reference's last stage of the launch arguments. -/
theorem result_eq : W16 m ρ c (Proc.devRef .tc main_v82)
    = Cert.ReferenceIdeal.ReadP.val_main_v87 (F := Ideal) X0 X1 X2 X3 X4 X5 X6 X7 X8 X9 :=
  (W16_arr m ρ c 3).trans ((Linear4.final (V15 m ρ) c).trans
    ((congr3 Linear4.whole ((keep_h3 (W14 m ρ c)).trans (hidden3 m ρ c)) (carried15 m ρ c).wo (biasOut m ρ c)).trans
      (Cert.Layers.linear4_eq X0 X1 X2 X3 X4 X5 X6 X7 X8 X9)))

end Cert.KernelIdeal.Fold

end
-- ==== Proof.lean ====
/-
  A three-layer graph convolution: the Pallas kernel against its jnp reference, over the extended reals.

  Both programs build, on the host, the edge lists with a self loop appended for every node, the degree of every node, the
  inverse square roots of the degrees and the weight of every edge, by the same operations on the edge-index argument.
  A layer then is:  a product with the layer's weight matrix,  a gather of the product's rows along the source nodes,
  a scaling by the edge weights,  a scatter-add at the destination nodes,  the bias,  a maximum with zero;
  and the result is the third hidden layer times the output matrix plus the output bias.

  The kernel computes the products and the bias-then-clamp steps in seven pipelined regions, ten row blocks each,
  and leaves the gathers and scatter-adds on the host between them; the reference does everything on the host. The two
  differ only in this: a kernel product is  Σ_k x(i,k) · w(k,j) + 0  block by block (its bias operand is a row of zeros,
  the real bias being added after the aggregation) where the reference has the bare product of the whole arrays; the
  casts of the product's operands to bf16 are the identity on extended reals. Since  x + 0 = x  holds on the extended
  reals without any finiteness, and ten row blocks tile the hundred thousand rows, the two results are equal element by
  element, and the precondition is never opened.

  The three frames: the kernel's two are generated; the reference's is its run with the result dropped.
  Nothing was rewritten by the idealization, so its soundness conjunct is `True`.
-/
import proofs.«131737_j26491358281754_1_alg».proof.Defs
import proofs.«131737_j26491358281754_1_alg».proof.Proof.Gen.Kernel
import proofs.«131737_j26491358281754_1_alg».proof.Proof.Gen.Kernel.Frame
import proofs.«131737_j26491358281754_1_alg».proof.Proof.Gen.KernelIdeal
import proofs.«131737_j26491358281754_1_alg».proof.Proof.Gen.KernelIdeal.Frame
import proofs.«131737_j26491358281754_1_alg».proof.Proof.Gen.ReferenceIdeal
import proofs.«131737_j26491358281754_1_alg».proof.Proof.Gen.Pre_finite_inputs
import proofs.«131737_j26491358281754_1_alg».proof.Proof.RefRead
import proofs.«131737_j26491358281754_1_alg».proof.Proof.KernelRun
import proofs.«131737_j26491358281754_1_alg».proof.Proof.Fold
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run, the result forgotten. -/
theorem frame_reference : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the reference's last stage of the kernel's launch arguments: the kernel's by the walk through
    its sixteen segments, the reference's by its own run and the agreement of the two memories on the arguments. -/
theorem algebraic : Cert.algebraic_KernelIdeal_ReferenceIdeal := by
  intro m ρ m' ρ' _ hagree
  refine ⟨fun c => Cert.ReferenceIdeal.ReadP.val_main_v87 (F := Ideal)
    (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.Fold.result_eq m ρ c), (h c).2⟩) (Cert.KernelIdeal.Valued.run_valued m ρ)
  · refine (θ_run Cert.ReferenceIdeal.defs _ _).mono (fun _ h c => ⟨?_, (h c).2⟩) (Cert.ReferenceIdeal.ValueP.run (F := Ideal) m' ρ')
    obtain ⟨a0, a1, a2, a3, a4, a5, a6, a7, a8, a9⟩ := hagree c
    rw [(h c).1, Cert.ReferenceIdeal.ReadP.val_main_v87_eq, a0, a1, a2, a3, a4, a5, a6, a7, a8, a9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
